-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x16 : Shape := ⟨2, ![2000, 16]⟩
abbrev S50000x6 : Shape := ⟨2, ![50000, 6]⟩
abbrev S2000x50000 : Shape := ⟨2, ![2000, 50000]⟩
abbrev S222x6 : Shape := ⟨2, ![222, 6]⟩
abbrev S27x6 : Shape := ⟨2, ![27, 6]⟩
abbrev S373x6 : Shape := ⟨2, ![373, 6]⟩
abbrev S283x6 : Shape := ⟨2, ![283, 6]⟩
abbrev S26x6 : Shape := ⟨2, ![26, 6]⟩
abbrev S7x6 : Shape := ⟨2, ![7, 6]⟩
abbrev S_ : Shape := ⟨0, ![]⟩

class Facts : Prop where
  bcast_S_S2000x16 : S_.BroadcastsInDim S2000x16 (![] : Fin 0 → Fin S2000x16.rank)
  reducesTo_S2000x16_S_d0_1 : S2000x16.ReducesTo [0, 1] S_
  h_S_ : 0 < S_.numel
  bcast_S_S222x6 : S_.BroadcastsInDim S222x6 (![] : Fin 0 → Fin S222x6.rank)
  reducesTo_S222x6_S_d0_1 : S222x6.ReducesTo [0, 1] S_
  bcast_S_S27x6 : S_.BroadcastsInDim S27x6 (![] : Fin 0 → Fin S27x6.rank)
  reducesTo_S27x6_S_d0_1 : S27x6.ReducesTo [0, 1] S_
  bcast_S_S373x6 : S_.BroadcastsInDim S373x6 (![] : Fin 0 → Fin S373x6.rank)
  reducesTo_S373x6_S_d0_1 : S373x6.ReducesTo [0, 1] S_
  bcast_S_S283x6 : S_.BroadcastsInDim S283x6 (![] : Fin 0 → Fin S283x6.rank)
  reducesTo_S283x6_S_d0_1 : S283x6.ReducesTo [0, 1] S_
  bcast_S_S26x6 : S_.BroadcastsInDim S26x6 (![] : Fin 0 → Fin S26x6.rank)
  reducesTo_S26x6_S_d0_1 : S26x6.ReducesTo [0, 1] S_
  bcast_S_S7x6 : S_.BroadcastsInDim S7x6 (![] : Fin 0 → Fin S7x6.rank)
  reducesTo_S7x6_S_d0_1 : S7x6.ReducesTo [0, 1] S_

variable [Facts]

def fn_part1 {F : FTy → Type} [FloatOps F] (main_arg6 : FVec F S283x6 .f32) (main_arg7 : FVec F S26x6 .f32) (main_arg8 : FVec F S7x6 .f32) (main_v13 : IVec S_ 1) (main_v16 : IVec S373x6 1) : IVec S_ 1 :=
  let main_c_5 : IVec S_ 1 := constantI S_ 1 1#1
  let main_v17 : IVec S_ 1 := (fun x v => Host.reduce IntOp.andi x v reducesTo_S373x6_S_d0_1 h_S_) main_v16 main_c_5
  let main_v18 : IVec S_ 1 := andi main_v13 main_v17
  let main_v19 : FVec F S283x6 .f32 := Host.absf main_arg6
  let main_cst_6 : FVec F S_ .f32 := constant S_ .f32 0x7F800000#32
  let main_v20 : FVec F S283x6 .f32 := broadcastInDim S283x6 ![] bcast_S_S283x6 main_cst_6
  let main_v21 : IVec S283x6 1 := cmpf .olt main_v19 main_v20
  let main_c_7 : IVec S_ 1 := constantI S_ 1 1#1
  let main_v22 : IVec S_ 1 := (fun x v => Host.reduce IntOp.andi x v reducesTo_S283x6_S_d0_1 h_S_) main_v21 main_c_7
  let main_v23 : IVec S_ 1 := andi main_v18 main_v22
  let main_v24 : FVec F S26x6 .f32 := Host.absf main_arg7
  let main_cst_8 : FVec F S_ .f32 := constant S_ .f32 0x7F800000#32
  let main_v25 : FVec F S26x6 .f32 := broadcastInDim S26x6 ![] bcast_S_S26x6 main_cst_8
  let main_v26 : IVec S26x6 1 := cmpf .olt main_v24 main_v25
  let main_c_9 : IVec S_ 1 := constantI S_ 1 1#1
  let main_v27 : IVec S_ 1 := (fun x v => Host.reduce IntOp.andi x v reducesTo_S26x6_S_d0_1 h_S_) main_v26 main_c_9
  let main_v28 : IVec S_ 1 := andi main_v23 main_v27
  let main_v29 : FVec F S7x6 .f32 := Host.absf main_arg8
  let main_cst_10 : FVec F S_ .f32 := constant S_ .f32 0x7F800000#32
  let main_v30 : FVec F S7x6 .f32 := broadcastInDim S7x6 ![] bcast_S_S7x6 main_cst_10
  let main_v31 : IVec S7x6 1 := cmpf .olt main_v29 main_v30
  let main_c_11 : IVec S_ 1 := constantI S_ 1 1#1
  let main_v32 : IVec S_ 1 := (fun x v => Host.reduce IntOp.andi x v reducesTo_S7x6_S_d0_1 h_S_) main_v31 main_c_11
  let main_v33 : IVec S_ 1 := andi main_v28 main_v32
  main_v33

def fn {F : FTy → Type} [FloatOps F] (main_arg0 : FVec F S2000x16 .f32) (main_arg1 : IVec S50000x6 32) (main_arg2 : IVec S2000x50000 32) (main_arg3 : FVec F S222x6 .f32) (main_arg4 : FVec F S27x6 .f32) (main_arg5 : FVec F S373x6 .f32) (main_arg6 : FVec F S283x6 .f32) (main_arg7 : FVec F S26x6 .f32) (main_arg8 : FVec F S7x6 .f32) : IVec S_ 1 :=
  let main_v0 : FVec F S2000x16 .f32 := Host.absf main_arg0
  let main_cst : FVec F S_ .f32 := constant S_ .f32 0x7F800000#32
  let main_v1 : FVec F S2000x16 .f32 := broadcastInDim S2000x16 ![] bcast_S_S2000x16 main_cst
  let main_v2 : IVec S2000x16 1 := cmpf .olt main_v0 main_v1
  let main_c : IVec S_ 1 := constantI S_ 1 1#1
  let main_v3 : IVec S_ 1 := (fun x v => Host.reduce IntOp.andi x v reducesTo_S2000x16_S_d0_1 h_S_) main_v2 main_c
  let main_v4 : FVec F S222x6 .f32 := Host.absf main_arg3
  let main_cst_0 : FVec F S_ .f32 := constant S_ .f32 0x7F800000#32
  let main_v5 : FVec F S222x6 .f32 := broadcastInDim S222x6 ![] bcast_S_S222x6 main_cst_0
  let main_v6 : IVec S222x6 1 := cmpf .olt main_v4 main_v5
  let main_c_1 : IVec S_ 1 := constantI S_ 1 1#1
  let main_v7 : IVec S_ 1 := (fun x v => Host.reduce IntOp.andi x v reducesTo_S222x6_S_d0_1 h_S_) main_v6 main_c_1
  let main_v8 : IVec S_ 1 := andi main_v3 main_v7
  let main_v9 : FVec F S27x6 .f32 := Host.absf main_arg4
  let main_cst_2 : FVec F S_ .f32 := constant S_ .f32 0x7F800000#32
  let main_v10 : FVec F S27x6 .f32 := broadcastInDim S27x6 ![] bcast_S_S27x6 main_cst_2
  let main_v11 : IVec S27x6 1 := cmpf .olt main_v9 main_v10
  let main_c_3 : IVec S_ 1 := constantI S_ 1 1#1
  let main_v12 : IVec S_ 1 := (fun x v => Host.reduce IntOp.andi x v reducesTo_S27x6_S_d0_1 h_S_) main_v11 main_c_3
  let main_v13 : IVec S_ 1 := andi main_v8 main_v12
  let main_v14 : FVec F S373x6 .f32 := Host.absf main_arg5
  let main_cst_4 : FVec F S_ .f32 := constant S_ .f32 0x7F800000#32
  let main_v15 : FVec F S373x6 .f32 := broadcastInDim S373x6 ![] bcast_S_S373x6 main_cst_4
  let main_v16 : IVec S373x6 1 := cmpf .olt main_v14 main_v15
  fn_part1 (F := F) main_arg6 main_arg7 main_arg8 main_v13 main_v16
-- ==== Kernel.lean ====
abbrev S2000x16 : Shape := ⟨2, ![2000, 16]⟩
abbrev S50000x6 : Shape := ⟨2, ![50000, 6]⟩
abbrev S2000x50000 : Shape := ⟨2, ![2000, 50000]⟩
abbrev S222x6 : Shape := ⟨2, ![222, 6]⟩
abbrev S27x6 : Shape := ⟨2, ![27, 6]⟩
abbrev S373x6 : Shape := ⟨2, ![373, 6]⟩
abbrev S283x6 : Shape := ⟨2, ![283, 6]⟩
abbrev S26x6 : Shape := ⟨2, ![26, 6]⟩
abbrev S7x6 : Shape := ⟨2, ![7, 6]⟩
abbrev S50000x1 : Shape := ⟨2, ![50000, 1]⟩
abbrev S50000 : Shape := ⟨1, ![50000]⟩
abbrev S_ : Shape := ⟨0, ![]⟩
abbrev S50000x36 : Shape := ⟨2, ![50000, 36]⟩
abbrev S50000x37 : Shape := ⟨2, ![50000, 37]⟩
abbrev S50176x37 : Shape := ⟨2, ![50176, 37]⟩
abbrev S2000x37 : Shape := ⟨2, ![2000, 37]⟩
abbrev S1000x1024 : Shape := ⟨2, ![1000, 1024]⟩
abbrev S1024x37 : Shape := ⟨2, ![1024, 37]⟩
abbrev S1000x37 : Shape := ⟨2, ![1000, 37]⟩
abbrev S2000x1 : Shape := ⟨2, ![2000, 1]⟩
abbrev S2000x36 : Shape := ⟨2, ![2000, 36]⟩
abbrev S2000x52 : Shape := ⟨2, ![2000, 52]⟩

abbrev nBuf : Space → Nat
  | .hbm => 89
  | .vmem => 6
  | .smem => 0
  | _ => 0

abbrev bufTy : (tb : Table) → Fin (tcTables nBuf tb) → BufTy
  | .hbm, ⟨0, _⟩ => ⟨S2000x16, .f32⟩
  | .hbm, ⟨1, _⟩ => ⟨S50000x6, .i32⟩
  | .hbm, ⟨2, _⟩ => ⟨S2000x50000, .i32⟩
  | .hbm, ⟨3, _⟩ => ⟨S222x6, .f32⟩
  | .hbm, ⟨4, _⟩ => ⟨S27x6, .f32⟩
  | .hbm, ⟨5, _⟩ => ⟨S373x6, .f32⟩
  | .hbm, ⟨6, _⟩ => ⟨S283x6, .f32⟩
  | .hbm, ⟨7, _⟩ => ⟨S26x6, .f32⟩
  | .hbm, ⟨8, _⟩ => ⟨S7x6, .f32⟩
  | .hbm, ⟨9, _⟩ => ⟨S50000x1, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x6, .f32⟩
  | .hbm, ⟨20, _⟩ => ⟨S50000x1, .i32⟩
  | .hbm, ⟨21, _⟩ => ⟨S50000, .i32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x6, .f32⟩
  | .hbm, ⟨31, _⟩ => ⟨S50000x1, .i32⟩
  | .hbm, ⟨32, _⟩ => ⟨S50000, .i32⟩
  | .hbm, ⟨33, _⟩ => ⟨S_, .i32⟩
  | .hbm, ⟨34, _⟩ => ⟨S50000, .i32⟩
  | .hbm, ⟨35, _⟩ => ⟨S50000, .i1⟩
  | .hbm, ⟨36, _⟩ => ⟨S_, .i32⟩
  | .hbm, ⟨37, _⟩ => ⟨S50000, .i32⟩
  | .hbm, ⟨38, _⟩ => ⟨S50000, .i32⟩
  | .hbm, ⟨39, _⟩ => ⟨S50000, .i32⟩
  | .hbm, ⟨40, _⟩ => ⟨S50000x1, .i32⟩
  | .hbm, ⟨41, _⟩ => ⟨S50000x6, .f32⟩
  | .hbm, ⟨42, _⟩ => ⟨S50000x1, .i32⟩
  | .hbm, ⟨43, _⟩ => ⟨S50000, .i32⟩
  | .hbm, ⟨44, _⟩ => ⟨S_, .i32⟩
  | .hbm, ⟨45, _⟩ => ⟨S50000, .i32⟩
  | .hbm, ⟨46, _⟩ => ⟨S50000, .i1⟩
  | .hbm, ⟨47, _⟩ => ⟨S_, .i32⟩
  | .hbm, ⟨48, _⟩ => ⟨S50000, .i32⟩
  | .hbm, ⟨49, _⟩ => ⟨S50000, .i32⟩
  | .hbm, ⟨50, _⟩ => ⟨S50000, .i32⟩
  | .hbm, ⟨51, _⟩ => ⟨S50000x1, .i32⟩
  | .hbm, ⟨52, _⟩ => ⟨S50000x6, .f32⟩
  | .hbm, ⟨53, _⟩ => ⟨S50000x1, .i32⟩
  | .hbm, ⟨54, _⟩ => ⟨S50000, .i32⟩
  | .hbm, ⟨55, _⟩ => ⟨S_, .i32⟩
  | .hbm, ⟨56, _⟩ => ⟨S50000, .i32⟩
  | .hbm, ⟨57, _⟩ => ⟨S50000, .i1⟩
  | .hbm, ⟨58, _⟩ => ⟨S_, .i32⟩
  | .hbm, ⟨59, _⟩ => ⟨S50000, .i32⟩
  | .hbm, ⟨60, _⟩ => ⟨S50000, .i32⟩
  | .hbm, ⟨61, _⟩ => ⟨S50000, .i32⟩
  | .hbm, ⟨62, _⟩ => ⟨S50000x1, .i32⟩
  | .hbm, ⟨63, _⟩ => ⟨S50000x6, .f32⟩
  | .hbm, ⟨64, _⟩ => ⟨S50000x1, .i32⟩
  | .hbm, ⟨65, _⟩ => ⟨S50000, .i32⟩
  | .hbm, ⟨66, _⟩ => ⟨S_, .i32⟩
  | .hbm, ⟨67, _⟩ => ⟨S50000, .i32⟩
  | .hbm, ⟨68, _⟩ => ⟨S50000, .i1⟩
  | .hbm, ⟨69, _⟩ => ⟨S_, .i32⟩
  | .hbm, ⟨70, _⟩ => ⟨S50000, .i32⟩
  | .hbm, ⟨71, _⟩ => ⟨S50000, .i32⟩
  | .hbm, ⟨72, _⟩ => ⟨S50000, .i32⟩
  | .hbm, ⟨73, _⟩ => ⟨S50000x1, .i32⟩
  | .hbm, ⟨74, _⟩ => ⟨S50000x6, .f32⟩
  | .hbm, ⟨75, _⟩ => ⟨S50000x36, .f32⟩
  | .hbm, ⟨76, _⟩ => ⟨S_, .f32⟩
  | .hbm, ⟨77, _⟩ => ⟨S50000x1, .f32⟩
  | .hbm, ⟨78, _⟩ => ⟨S50000x37, .f32⟩
  | .hbm, ⟨79, _⟩ => ⟨S50000x37, .bf16⟩
  | .hbm, ⟨80, _⟩ => ⟨S_, .f32⟩
  | .hbm, ⟨81, _⟩ => ⟨S_, .bf16⟩
  | .hbm, ⟨82, _⟩ => ⟨S50176x37, .bf16⟩
  | .hbm, ⟨83, _⟩ => ⟨S2000x37, .f32⟩
  | .hbm, ⟨84, _⟩ => ⟨S2000x1, .f32⟩
  | .hbm, ⟨85, _⟩ => ⟨S2000x36, .f32⟩
  | .hbm, ⟨86, _⟩ => ⟨S2000x36, .f32⟩
  | .hbm, ⟨87, _⟩ => ⟨S2000x36, .f32⟩
  | .hbm, ⟨88, _⟩ => ⟨S2000x52, .f32⟩
  | .local _ .vmem, ⟨0, _⟩ => ⟨S1000x1024, .i32⟩
  | .local _ .vmem, ⟨1, _⟩ => ⟨S1000x1024, .i32⟩
  | .local _ .vmem, ⟨2, _⟩ => ⟨S1024x37, .bf16⟩
  | .local _ .vmem, ⟨3, _⟩ => ⟨S1024x37, .bf16⟩
  | .local _ .vmem, ⟨4, _⟩ => ⟨S1000x37, .f32⟩
  | .local _ .vmem, ⟨5, _⟩ => ⟨S1000x37, .f32⟩
  | _, _ => ⟨S2000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x37 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x37 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S50000x6_S50000x1_0_0 : S50000x6.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x6_S50000x1_0_1 : S50000x6.Slices ![0, 1] S50000x1
  slices_S50000x6_S50000x1_0_2 : S50000x6.Slices ![0, 2] S50000x1
  slices_S50000x6_S50000x1_0_3 : S50000x6.Slices ![0, 3] S50000x1
  slices_S50000x6_S50000x1_0_4 : S50000x6.Slices ![0, 4] S50000x1
  slices_S50000x6_S50000x1_0_5 : S50000x6.Slices ![0, 5] S50000x1
  concatenates_S50000x6_S50000x6_S50000x6_S50000x6_S50000x6_S50000x6_S50000x36_d1 : Shape.Concatenates [S50000x6, S50000x6, S50000x6, S50000x6, S50000x6, S50000x6] S50000x36 1
  bcast_S_S50000x1 : S_.BroadcastsInDim S50000x1 (![] : Fin 0 → Fin S50000x1.rank)
  concatenates_S50000x36_S50000x1_S50000x37_d1 : Shape.Concatenates [S50000x36, S50000x1] S50000x37 1
  bitsLt_bf16_f32 : FTy.bits .bf16 < FTy.bits .f32
  pads_S50000x37_S50176x37_01760_000 : S50000x37.Pads (![0, 0] : Fin 2 → Nat) ![176, 0] ![0, 0] S50176x37
  h_S_ : 0 < S_.numel
  inb_S1000x37_S1000x37_0_0 : ∀ a, (![0, 0] : Fin 2 → Nat) a + S1000x37.size a ≤ S1000x37.size a
  h_S1000x37 : 0 < S1000x37.numel
  iota_S1000x1024_d1_w32 : S1000x1024.Iotas .tc 32 [1]
  inb_S1000x1024_S1000x1024_0_0 : ∀ a, (![0, 0] : Fin 2 → Nat) a + S1000x1024.size a ≤ S1000x1024.size a
  h_S1000x1024 : 0 < S1000x1024.numel
  natLt_1_32 : 1 < 32
  shapeCasts_S1000x37_S1000x37 : S1000x37.ShapeCasts S1000x37
  inb_S1024x37_S1024x37_0_0 : ∀ a, (![0, 0] : Fin 2 → Nat) a + S1024x37.size a ≤ S1024x37.size a
  h_S1024x37 : 0 < S1024x37.numel
  shapeCasts_S1024x37_S1024x37 : S1024x37.ShapeCasts S1024x37
  slices_S2000x37_S2000x1_0_36 : S2000x37.Slices ![0, 36] S2000x1
  slices_S2000x37_S2000x36_0_0 : S2000x37.Slices ![0, 0] S2000x36
  bcast_S2000x1_S2000x36_0_1 : S2000x1.BroadcastsInDim S2000x36 (![0, 1] : Fin 2 → Fin S2000x36.rank)
  concatenates_S2000x16_S2000x36_S2000x52_d1 : Shape.Concatenates [S2000x16, S2000x36] S2000x52 1
  gather_S222x6_S50000x1_S50000x6_1_0_n_n_0_1_16_wf : GatherDims.WF S222x6 S50000x1 S50000x6 [1] [0] [] [0] [] 1 ![1, 6]
  gather_S27x6_S50000x1_S50000x6_1_0_n_n_0_1_16_wf : GatherDims.WF S27x6 S50000x1 S50000x6 [1] [0] [] [0] [] 1 ![1, 6]
  gather_S373x6_S50000x1_S50000x6_1_0_n_n_0_1_16_wf : GatherDims.WF S373x6 S50000x1 S50000x6 [1] [0] [] [0] [] 1 ![1, 6]
  gather_S283x6_S50000x1_S50000x6_1_0_n_n_0_1_16_wf : GatherDims.WF S283x6 S50000x1 S50000x6 [1] [0] [] [0] [] 1 ![1, 6]
  gather_S26x6_S50000x1_S50000x6_1_0_n_n_0_1_16_wf : GatherDims.WF S26x6 S50000x1 S50000x6 [1] [0] [] [0] [] 1 ![1, 6]
  gather_S7x6_S50000x1_S50000x6_1_0_n_n_0_1_16_wf : GatherDims.WF S7x6 S50000x1 S50000x6 [1] [0] [] [0] [] 1 ![1, 6]
  dot_S1000x1024_S1024x37_S1000x37_1_0_0_1_n_n_wf : DotDims.WF S1000x1024 S1024x37 S1000x37 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1000x1024.size a < S2000x50000.size a
  hwx0_0 : ∀ i : grid0.Coords, EltTy.bits .i32 = 32 ∨ (Rect.unit (s := S2000x50000) (fun a => cc0_transform_0 i a * S1000x1024.size a) (fun a => (Pipeline.Clip.of (cc0_transform_0 i a) (S1000x1024.size a) (S2000x50000.size a)).extent (S1000x1024.size a)) fun a => Pipeline.Clip.inb (Pipeline.Clip.ok_of (hstart0_0 i a))).WholeWords (EltTy.packing .i32)
  hwxs0_0 : ∀ i : grid0.Coords, EltTy.bits .i32 = 32 ∨ (Rect.unit (s := S1000x1024) (fun _ => 0) (fun a => (Pipeline.Clip.of (cc0_transform_0 i a) (S1000x1024.size a) (S2000x50000.size a)).extent (S1000x1024.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x37.size a ≤ S50176x37.size a
  hwx0_1 : ∀ i : grid0.Coords, EltTy.bits .bf16 = 32 ∨ (Rect.block (s := S50176x37) S1024x37.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x37.size a ≤ S2000x37.size a
  hwx0_2 : ∀ i : grid0.Coords, EltTy.bits .f32 = 32 ∨ (Rect.block (s := S2000x37) S1000x37.size (cc0_transform_2 i) (hinb0_2 i)).WholeWords (EltTy.packing .f32)

variable [Facts₀]

def gather_S222x6_S50000x1_S50000x6_1_0_n_n_0_1_16 : GatherDims S222x6 S50000x1 S50000x6 where
  offsetDims := [1]
  collapsedSliceDims := [0]
  operandBatchingDims := []
  startIndicesBatchingDims := []
  startIndexMap := [0]
  indexVectorDim := 1
  sliceSizes := ![1, 6]
  wf := gather_S222x6_S50000x1_S50000x6_1_0_n_n_0_1_16_wf
def gather_S27x6_S50000x1_S50000x6_1_0_n_n_0_1_16 : GatherDims S27x6 S50000x1 S50000x6 where
  offsetDims := [1]
  collapsedSliceDims := [0]
  operandBatchingDims := []
  startIndicesBatchingDims := []
  startIndexMap := [0]
  indexVectorDim := 1
  sliceSizes := ![1, 6]
  wf := gather_S27x6_S50000x1_S50000x6_1_0_n_n_0_1_16_wf
def gather_S373x6_S50000x1_S50000x6_1_0_n_n_0_1_16 : GatherDims S373x6 S50000x1 S50000x6 where
  offsetDims := [1]
  collapsedSliceDims := [0]
  operandBatchingDims := []
  startIndicesBatchingDims := []
  startIndexMap := [0]
  indexVectorDim := 1
  sliceSizes := ![1, 6]
  wf := gather_S373x6_S50000x1_S50000x6_1_0_n_n_0_1_16_wf
def gather_S283x6_S50000x1_S50000x6_1_0_n_n_0_1_16 : GatherDims S283x6 S50000x1 S50000x6 where
  offsetDims := [1]
  collapsedSliceDims := [0]
  operandBatchingDims := []
  startIndicesBatchingDims := []
  startIndexMap := [0]
  indexVectorDim := 1
  sliceSizes := ![1, 6]
  wf := gather_S283x6_S50000x1_S50000x6_1_0_n_n_0_1_16_wf
def gather_S26x6_S50000x1_S50000x6_1_0_n_n_0_1_16 : GatherDims S26x6 S50000x1 S50000x6 where
  offsetDims := [1]
  collapsedSliceDims := [0]
  operandBatchingDims := []
  startIndicesBatchingDims := []
  startIndexMap := [0]
  indexVectorDim := 1
  sliceSizes := ![1, 6]
  wf := gather_S26x6_S50000x1_S50000x6_1_0_n_n_0_1_16_wf
def gather_S7x6_S50000x1_S50000x6_1_0_n_n_0_1_16 : GatherDims S7x6 S50000x1 S50000x6 where
  offsetDims := [1]
  collapsedSliceDims := [0]
  operandBatchingDims := []
  startIndicesBatchingDims := []
  startIndexMap := [0]
  indexVectorDim := 1
  sliceSizes := ![1, 6]
  wf := gather_S7x6_S50000x1_S50000x6_1_0_n_n_0_1_16_wf
def dot_S1000x1024_S1024x37_S1000x37_1_0_0_1_n_n : DotDims S1000x1024 S1024x37 S1000x37 where
  lhsContracting := [1]
  rhsContracting := [0]
  lhsNonContracting := [0]
  rhsNonContracting := [1]
  lhsBatch := []
  rhsBatch := []
  wf := dot_S1000x1024_S1024x37_S1000x37_1_0_0_1_n_n_wf

abbrev win0_0 : Pipeline.Window sig grid0 :=
  Pipeline.Window.ofSpecClip (Memref.whole main_arg2) S1000x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v58) S1024x37.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1000x37.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000x16 : Shape := ⟨2, ![2000, 16]⟩
abbrev S50000x6 : Shape := ⟨2, ![50000, 6]⟩
abbrev S2000x50000 : Shape := ⟨2, ![2000, 50000]⟩
abbrev S222x6 : Shape := ⟨2, ![222, 6]⟩
abbrev S27x6 : Shape := ⟨2, ![27, 6]⟩
abbrev S373x6 : Shape := ⟨2, ![373, 6]⟩
abbrev S283x6 : Shape := ⟨2, ![283, 6]⟩
abbrev S26x6 : Shape := ⟨2, ![26, 6]⟩
abbrev S7x6 : Shape := ⟨2, ![7, 6]⟩
abbrev S50000x1 : Shape := ⟨2, ![50000, 1]⟩
abbrev S50000 : Shape := ⟨1, ![50000]⟩
abbrev S_ : Shape := ⟨0, ![]⟩
abbrev S50000x36 : Shape := ⟨2, ![50000, 36]⟩
abbrev S2000 : Shape := ⟨1, ![2000]⟩
abbrev S2000x1 : Shape := ⟨2, ![2000, 1]⟩
abbrev S2000x36 : Shape := ⟨2, ![2000, 36]⟩
abbrev S2000x52 : Shape := ⟨2, ![2000, 52]⟩

abbrev nBuf : Space → Nat
  | .hbm => 87
  | .vmem => 0
  | .smem => 0
  | _ => 0

abbrev bufTy : (tb : Table) → Fin (tcTables nBuf tb) → BufTy
  | .hbm, ⟨0, _⟩ => ⟨S2000x16, .f32⟩
  | .hbm, ⟨1, _⟩ => ⟨S50000x6, .i32⟩
  | .hbm, ⟨2, _⟩ => ⟨S2000x50000, .i32⟩
  | .hbm, ⟨3, _⟩ => ⟨S222x6, .f32⟩
  | .hbm, ⟨4, _⟩ => ⟨S27x6, .f32⟩
  | .hbm, ⟨5, _⟩ => ⟨S373x6, .f32⟩
  | .hbm, ⟨6, _⟩ => ⟨S283x6, .f32⟩
  | .hbm, ⟨7, _⟩ => ⟨S26x6, .f32⟩
  | .hbm, ⟨8, _⟩ => ⟨S7x6, .f32⟩
  | .hbm, ⟨9, _⟩ => ⟨S50000x1, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x6, .f32⟩
  | .hbm, ⟨20, _⟩ => ⟨S50000x1, .i32⟩
  | .hbm, ⟨21, _⟩ => ⟨S50000, .i32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x6, .f32⟩
  | .hbm, ⟨31, _⟩ => ⟨S50000x1, .i32⟩
  | .hbm, ⟨32, _⟩ => ⟨S50000, .i32⟩
  | .hbm, ⟨33, _⟩ => ⟨S_, .i32⟩
  | .hbm, ⟨34, _⟩ => ⟨S50000, .i32⟩
  | .hbm, ⟨35, _⟩ => ⟨S50000, .i1⟩
  | .hbm, ⟨36, _⟩ => ⟨S_, .i32⟩
  | .hbm, ⟨37, _⟩ => ⟨S50000, .i32⟩
  | .hbm, ⟨38, _⟩ => ⟨S50000, .i32⟩
  | .hbm, ⟨39, _⟩ => ⟨S50000, .i32⟩
  | .hbm, ⟨40, _⟩ => ⟨S50000x1, .i32⟩
  | .hbm, ⟨41, _⟩ => ⟨S50000x6, .f32⟩
  | .hbm, ⟨42, _⟩ => ⟨S50000x1, .i32⟩
  | .hbm, ⟨43, _⟩ => ⟨S50000, .i32⟩
  | .hbm, ⟨44, _⟩ => ⟨S_, .i32⟩
  | .hbm, ⟨45, _⟩ => ⟨S50000, .i32⟩
  | .hbm, ⟨46, _⟩ => ⟨S50000, .i1⟩
  | .hbm, ⟨47, _⟩ => ⟨S_, .i32⟩
  | .hbm, ⟨48, _⟩ => ⟨S50000, .i32⟩
  | .hbm, ⟨49, _⟩ => ⟨S50000, .i32⟩
  | .hbm, ⟨50, _⟩ => ⟨S50000, .i32⟩
  | .hbm, ⟨51, _⟩ => ⟨S50000x1, .i32⟩
  | .hbm, ⟨52, _⟩ => ⟨S50000x6, .f32⟩
  | .hbm, ⟨53, _⟩ => ⟨S50000x1, .i32⟩
  | .hbm, ⟨54, _⟩ => ⟨S50000, .i32⟩
  | .hbm, ⟨55, _⟩ => ⟨S_, .i32⟩
  | .hbm, ⟨56, _⟩ => ⟨S50000, .i32⟩
  | .hbm, ⟨57, _⟩ => ⟨S50000, .i1⟩
  | .hbm, ⟨58, _⟩ => ⟨S_, .i32⟩
  | .hbm, ⟨59, _⟩ => ⟨S50000, .i32⟩
  | .hbm, ⟨60, _⟩ => ⟨S50000, .i32⟩
  | .hbm, ⟨61, _⟩ => ⟨S50000, .i32⟩
  | .hbm, ⟨62, _⟩ => ⟨S50000x1, .i32⟩
  | .hbm, ⟨63, _⟩ => ⟨S50000x6, .f32⟩
  | .hbm, ⟨64, _⟩ => ⟨S50000x1, .i32⟩
  | .hbm, ⟨65, _⟩ => ⟨S50000, .i32⟩
  | .hbm, ⟨66, _⟩ => ⟨S_, .i32⟩
  | .hbm, ⟨67, _⟩ => ⟨S50000, .i32⟩
  | .hbm, ⟨68, _⟩ => ⟨S50000, .i1⟩
  | .hbm, ⟨69, _⟩ => ⟨S_, .i32⟩
  | .hbm, ⟨70, _⟩ => ⟨S50000, .i32⟩
  | .hbm, ⟨71, _⟩ => ⟨S50000, .i32⟩
  | .hbm, ⟨72, _⟩ => ⟨S50000, .i32⟩
  | .hbm, ⟨73, _⟩ => ⟨S50000x1, .i32⟩
  | .hbm, ⟨74, _⟩ => ⟨S50000x6, .f32⟩
  | .hbm, ⟨75, _⟩ => ⟨S50000x36, .f32⟩
  | .hbm, ⟨76, _⟩ => ⟨S_, .i32⟩
  | .hbm, ⟨77, _⟩ => ⟨S2000x50000, .i32⟩
  | .hbm, ⟨78, _⟩ => ⟨S2000x50000, .i1⟩
  | .hbm, ⟨79, _⟩ => ⟨S2000x50000, .f32⟩
  | .hbm, ⟨80, _⟩ => ⟨S_, .f32⟩
  | .hbm, ⟨81, _⟩ => ⟨S2000, .f32⟩
  | .hbm, ⟨82, _⟩ => ⟨S2000x1, .f32⟩
  | .hbm, ⟨83, _⟩ => ⟨S2000x36, .f32⟩
  | .hbm, ⟨84, _⟩ => ⟨S2000x36, .f32⟩
  | .hbm, ⟨85, _⟩ => ⟨S2000x36, .f32⟩
  | .hbm, ⟨86, _⟩ => ⟨S2000x52, .f32⟩
  | _, _ => ⟨S2000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  slices_S50000x6_S50000x1_0_0 : S50000x6.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x6_S50000x1_0_1 : S50000x6.Slices ![0, 1] S50000x1
  slices_S50000x6_S50000x1_0_2 : S50000x6.Slices ![0, 2] S50000x1
  slices_S50000x6_S50000x1_0_3 : S50000x6.Slices ![0, 3] S50000x1
  slices_S50000x6_S50000x1_0_4 : S50000x6.Slices ![0, 4] S50000x1
  slices_S50000x6_S50000x1_0_5 : S50000x6.Slices ![0, 5] S50000x1
  concatenates_S50000x6_S50000x6_S50000x6_S50000x6_S50000x6_S50000x6_S50000x36_d1 : Shape.Concatenates [S50000x6, S50000x6, S50000x6, S50000x6, S50000x6, S50000x6] S50000x36 1
  bcast_S_S2000x50000 : S_.BroadcastsInDim S2000x50000 (![] : Fin 0 → Fin S2000x50000.rank)
  reducesTo_S2000x50000_S2000_d1 : S2000x50000.ReducesTo [1] S2000
  h_S_ : 0 < S_.numel
  bcast_S2000_S2000x1_0 : S2000.BroadcastsInDim S2000x1 (![0] : Fin 1 → Fin S2000x1.rank)
  bcast_S2000x1_S2000x36_0_1 : S2000x1.BroadcastsInDim S2000x36 (![0, 1] : Fin 2 → Fin S2000x36.rank)
  concatenates_S2000x16_S2000x36_S2000x52_d1 : Shape.Concatenates [S2000x16, S2000x36] S2000x52 1
  gather_S222x6_S50000x1_S50000x6_1_0_n_n_0_1_16_wf : GatherDims.WF S222x6 S50000x1 S50000x6 [1] [0] [] [0] [] 1 ![1, 6]
  gather_S27x6_S50000x1_S50000x6_1_0_n_n_0_1_16_wf : GatherDims.WF S27x6 S50000x1 S50000x6 [1] [0] [] [0] [] 1 ![1, 6]
  gather_S373x6_S50000x1_S50000x6_1_0_n_n_0_1_16_wf : GatherDims.WF S373x6 S50000x1 S50000x6 [1] [0] [] [0] [] 1 ![1, 6]
  gather_S283x6_S50000x1_S50000x6_1_0_n_n_0_1_16_wf : GatherDims.WF S283x6 S50000x1 S50000x6 [1] [0] [] [0] [] 1 ![1, 6]
  gather_S26x6_S50000x1_S50000x6_1_0_n_n_0_1_16_wf : GatherDims.WF S26x6 S50000x1 S50000x6 [1] [0] [] [0] [] 1 ![1, 6]
  gather_S7x6_S50000x1_S50000x6_1_0_n_n_0_1_16_wf : GatherDims.WF S7x6 S50000x1 S50000x6 [1] [0] [] [0] [] 1 ![1, 6]
  dot_S2000x50000_S50000x36_S2000x36_1_0_0_1_n_n_wf : DotDims.WF S2000x50000 S50000x36 S2000x36 [1] [0] [0] [1] [] []

variable [Facts₀]

def gather_S222x6_S50000x1_S50000x6_1_0_n_n_0_1_16 : GatherDims S222x6 S50000x1 S50000x6 where
  offsetDims := [1]
  collapsedSliceDims := [0]
  operandBatchingDims := []
  startIndicesBatchingDims := []
  startIndexMap := [0]
  indexVectorDim := 1
  sliceSizes := ![1, 6]
  wf := gather_S222x6_S50000x1_S50000x6_1_0_n_n_0_1_16_wf
def gather_S27x6_S50000x1_S50000x6_1_0_n_n_0_1_16 : GatherDims S27x6 S50000x1 S50000x6 where
  offsetDims := [1]
  collapsedSliceDims := [0]
  operandBatchingDims := []
  startIndicesBatchingDims := []
  startIndexMap := [0]
  indexVectorDim := 1
  sliceSizes := ![1, 6]
  wf := gather_S27x6_S50000x1_S50000x6_1_0_n_n_0_1_16_wf
def gather_S373x6_S50000x1_S50000x6_1_0_n_n_0_1_16 : GatherDims S373x6 S50000x1 S50000x6 where
  offsetDims := [1]
  collapsedSliceDims := [0]
  operandBatchingDims := []
  startIndicesBatchingDims := []
  startIndexMap := [0]
  indexVectorDim := 1
  sliceSizes := ![1, 6]
  wf := gather_S373x6_S50000x1_S50000x6_1_0_n_n_0_1_16_wf
def gather_S283x6_S50000x1_S50000x6_1_0_n_n_0_1_16 : GatherDims S283x6 S50000x1 S50000x6 where
  offsetDims := [1]
  collapsedSliceDims := [0]
  operandBatchingDims := []
  startIndicesBatchingDims := []
  startIndexMap := [0]
  indexVectorDim := 1
  sliceSizes := ![1, 6]
  wf := gather_S283x6_S50000x1_S50000x6_1_0_n_n_0_1_16_wf
def gather_S26x6_S50000x1_S50000x6_1_0_n_n_0_1_16 : GatherDims S26x6 S50000x1 S50000x6 where
  offsetDims := [1]
  collapsedSliceDims := [0]
  operandBatchingDims := []
  startIndicesBatchingDims := []
  startIndexMap := [0]
  indexVectorDim := 1
  sliceSizes := ![1, 6]
  wf := gather_S26x6_S50000x1_S50000x6_1_0_n_n_0_1_16_wf
def gather_S7x6_S50000x1_S50000x6_1_0_n_n_0_1_16 : GatherDims S7x6 S50000x1 S50000x6 where
  offsetDims := [1]
  collapsedSliceDims := [0]
  operandBatchingDims := []
  startIndicesBatchingDims := []
  startIndexMap := [0]
  indexVectorDim := 1
  sliceSizes := ![1, 6]
  wf := gather_S7x6_S50000x1_S50000x6_1_0_n_n_0_1_16_wf
def dot_S2000x50000_S50000x36_S2000x36_1_0_0_1_n_n : DotDims S2000x50000 S50000x36 S2000x36 where
  lhsContracting := [1]
  rhsContracting := [0]
  lhsNonContracting := [0]
  rhsNonContracting := [1]
  lhsBatch := []
  rhsBatch := []
  wf := dot_S2000x50000_S50000x36_S2000x36_1_0_0_1_n_n_wf

class Facts : Prop extends Facts₀ where

variable [Facts]
-- ==== Proof.K.FrameKit.lean ====
/-
  The program around its one kernel launch. The host lines before the launch (six table look-ups joined side by
  side, a column of ones appended, the rounding to the narrow format, 176 zero rows appended) write only their own
  result buffers, so each argument array is still what it was when the launch begins; the five host lines after it
  (two column slices, a spread, a quotient, a join) write only theirs, so each argument array ends as it began.
  This file states those two facts per argument, the program as "lines, launch, lines", and the step from the
  launch theorem's conclusion to "the arguments are unchanged".
-/
import proofs.«162163_j6107443495191_2_alg».proof.Proof.Gen.Kernel.Launch
import proofs.«162163_j6107443495191_2_alg».proof.Proof.Gen.Kernel.Skeleton
import proofs.«162163_j6107443495191_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch begins -/

/-- What each buffer of a core holds when the launch begins: the launch memory after the host lines before it. -/
abbrev V0 (c : Dev nD) : Valuation τ sig (Elt F) := StableHlo.after (List.flatten [hostOps0, hostOps0_1]) (fun b => m (c, b))
/-- The same, read at one buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the launch, the remaining host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The lines after the launch touch only unscoped buffers of the core. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array the launch stages: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays before and after -/

/-- No host line before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))

/-- No host line after the launch writes argument 0 either: it ends as it began. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the launch writes argument 1 either: it ends as it began. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line after the launch writes argument 3 either: it ends as it began. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the launch writes argument 4 either: it ends as it began. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line after the launch writes argument 5 either: it ends as it began. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line after the launch writes argument 6 either: it ends as it began. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line after the launch writes argument 7 either: it ends as it began. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line after the launch writes argument 8 either: it ends as it began. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The blocks -/

/-- The part inside its array of window `w`'s block at grid point `t`, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## From the launch theorem's conclusion to "the arguments are unchanged" -/

/-- For any per-point description of the staging buffers whose arrays are the ones the launch finds: if the run ends
    with every staged array at the described contents and every other buffer as the last host lines leave it, then
    every argument array ends as it began — the staged one because it is only read, the others because no line
    writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 0).trans (((dats 0 c).arrAt_in 0 rfl _).trans ((hA c 0).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

end Cert.Kernel.Hand

end
-- ==== Proof.K.Body.lean ====
/-
  The kernel body at one grid point, on any three whole staging buffers. The body reads the block of membership
  words and the block of table rows, and adds their masked product to the accumulator block; at the first column
  block (second grid coordinate zero) it first overwrites the accumulator with zeros. Two cases, by that test. In
  each the run ends with the two input buffers as they were and the accumulator holding the arithmetic term
  `k0_pay2` of what was read: over the zero block `k0_pay1` in the first case, over what the buffer held before in
  the other.
-/
import proofs.«162163_j6107443495191_2_alg».proof.Proof.K.FrameKit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The test on the second grid coordinate -/

/-- The body's test "this is the first column block", as the body computes it from the grid coordinates. -/
abbrev isFirst (i : grid0.Coords) : Prop := (Scalar.cmpi .ne (Scalar.extui (Scalar.cmpi .eq (BitVec.ofNat 32 (i 1).val) 0#32)) 0#32) = 1#1
/-- It holds exactly at the grid points whose number is a multiple of 49 (the row blocks' first points). -/
theorem isFirst_iff : ∀ t : Fin cfg0.N, isFirst (grid0.coords t) ↔ t.val % 49 = 0 :=
  (by decide +kernel : ∀ t : Fin grid0.N, isFirst (grid0.coords t) ↔ t.val % 49 = 0)

/-! ## The staging buffers at a grid point -/

/-- One staging buffer of the accumulator window, through which its contents are stated. -/
abbrev VAcc : View sig .tc .vmem S1000x37 .f32 := (Memref.whole cc0_stg2_0 : Memref sig .tc .vmem S1000x37 .f32).view
abbrev ms0 (t : Fin cfg0.N) : Memref sig .tc .vmem S1000x1024 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x37 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1000x37 .f32 := win0_2.stage (cfg0.slots t 2)
abbrev hs2 (t : Fin cfg0.N) : (ms2 t).IsWhole := hstage0_2 ((cfg0.slots t 2).cast nbuf0_2)

/-! ## The two runs -/

set_option maxHeartbeats 4000000 in
/-- First column block: whatever the accumulator buffer held, the body leaves in it the stores listed (last first):
    the zero block, then the sum. -/
noncomputable def runFirst (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : isFirst i)
    (x0 : Vec F S1000x1024 .i32) (x1 : Vec F S1024x37 .bf16) :
    { L : List (View.Piece (Elt F) S1000x37 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc0__masked_mean_kernel i arg2 harg2 arg3 harg3 arg4 harg4) K } := by
  refine ⟨?_, fun E K => ?run⟩
  case run =>
    simp only [cc0__masked_mean_kernel_eq_skeleton]; unfold cc0__masked_mean_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- Later column blocks: the accumulator buffer holding `xs`, the body leaves in it one store: the sum over `xs`. -/
noncomputable def runNext (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : ¬isFirst i)
    (x0 : Vec F S1000x1024 .i32) (x1 : Vec F S1024x37 .bf16) (xs : Vec F S1000x37 .f32) :
    { L : List (View.Piece (Elt F) S1000x37 .f32) //
      ∀ (E : Set ℕ) (K : PUnit → sProp 𝕄),
        iprop(owns (c : Thread nD τ) arg2 fullShare x0 ∗ owns (c : Thread nD τ) arg3 fullShare x1 ∗ owns (c : Thread nD τ) arg4 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc0__masked_mean_kernel i arg2 harg2 arg3 harg3 arg4 harg4) K } := by
  refine ⟨?_, fun E K => ?run⟩
  case run =>
    simp only [cc0__masked_mean_kernel_eq_skeleton]; unfold cc0__masked_mean_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What the runs leave, read back -/

/-- The stores of the first case cover the accumulator block. -/
theorem cover_first (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : isFirst i)
    (x0 : Vec F S1000x1024 .i32) (x1 : Vec F S1024x37 .bf16) (y : S1000x37.Idx) :
    ∃ pc ∈ (runFirst c i arg2 harg2 arg3 harg3 arg4 harg4 hc x0 x1).1, y ∈ pc.1.set :=
  View.cover_of_tiledL (runFirst c i arg2 harg2 arg3 harg3 arg4 harg4 hc x0 x1).1 S1000x37.size (by sl_kernel_rfl) y

/-- So do the store of the other case. -/
theorem cover_next (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : ¬isFirst i)
    (x0 : Vec F S1000x1024 .i32) (x1 : Vec F S1024x37 .bf16) (xs : Vec F S1000x37 .f32) (y : S1000x37.Idx) :
    ∃ pc ∈ (runNext c i arg2 harg2 arg3 harg3 arg4 harg4 hc x0 x1 xs).1, y ∈ pc.1.set :=
  View.cover_of_tiledL (runNext c i arg2 harg2 arg3 harg3 arg4 harg4 hc x0 x1 xs).1 S1000x37.size (by sl_kernel_rfl) y

/-- What the first case leaves in the accumulator buffer. -/
def leftFirst (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : isFirst i)
    (x0 : Vec F S1000x1024 .i32) (x1 : Vec F S1024x37 .bf16) : Vec F S1000x37 .f32 :=
  VAcc.read (Elt F) (VAcc.writes (Elt F) VAcc.junk (runFirst c i arg2 harg2 arg3 harg3 arg4 harg4 hc x0 x1).1)

/-- What the other case leaves there. -/
def leftNext (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : ¬isFirst i)
    (x0 : Vec F S1000x1024 .i32) (x1 : Vec F S1024x37 .bf16) (xs : Vec F S1000x37 .f32) : Vec F S1000x37 .f32 :=
  VAcc.read (Elt F) (VAcc.writes (Elt F) VAcc.junk (runNext c i arg2 harg2 arg3 harg3 arg4 harg4 hc x0 x1 xs).1)

/-- Read back, the first case's stores are the body's sum over the zero block. -/
theorem leftFirst_eq (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : isFirst i)
    (x0 : Vec F S1000x1024 .i32) (x1 : Vec F S1024x37 .bf16) :
    leftFirst c i arg2 harg2 arg3 harg3 arg4 harg4 hc x0 x1 = k0_pay2 i x0 (k0_pay1 (F := F)) x1 := by
  have hz : (![0, 0] : Fin 2 → Nat) = fun _ => 0 := funext fun a => by fin_cases a <;> rfl
  unfold leftFirst
  rw [View.read_writes_eq_canon _ _ _ (cover_first c i arg2 harg2 arg3 harg3 arg4 harg4 hc x0 x1)]
  unfold runFirst
  dsimp only
  sl_unfold_words
  rw [View.canon_cons_unit_zero hz]
  simp only [View.readAt_eq_ld, harg2.read_unread, harg3.read_unread, View.ld_unit_zero (S := S1000x1024) hz,
    View.ld_unit_zero (S := S1024x37) hz]
  rw [View.readCov_unit_zero (S := S1000x37) arg4.view hz]

/-- Read back, the other case's store is the body's sum over what the buffer held. -/
theorem leftNext_eq (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : ¬isFirst i)
    (x0 : Vec F S1000x1024 .i32) (x1 : Vec F S1024x37 .bf16) (xs : Vec F S1000x37 .f32) :
    leftNext c i arg2 harg2 arg3 harg3 arg4 harg4 hc x0 x1 xs = k0_pay2 i x0 xs x1 := by
  have hz : (![0, 0] : Fin 2 → Nat) = fun _ => 0 := funext fun a => by fin_cases a <;> rfl
  unfold leftNext
  rw [View.read_writes_eq_canon _ _ _ (cover_next c i arg2 harg2 arg3 harg3 arg4 harg4 hc x0 x1 xs)]
  unfold runNext
  dsimp only
  sl_unfold_words
  rw [View.canon_unit_zero hz]
  simp only [View.readAt_eq_ld, harg2.read_unread, harg3.read_unread, harg4.read_unread, View.ld_unit_zero (S := S1000x1024) hz,
    View.ld_unit_zero (S := S1024x37) hz, View.ld_unit_zero (S := S1000x37) hz]

end Cert.Kernel.Hand

end
-- ==== Proof.K.PayCongr.lean ====
/- The kernel body's arithmetic does not depend on the staged words at columns past the array's end:
   there the column test `1024·k + j < 50000` is 0, and `andi _ 0 = 0`. Generic in the float values. -/
import proofs.«162163_j6107443495191_2_alg».proof.Proof.Gen.Kernel.Skeleton
import Idealize.ShloMosaic.Lib.WordArith

set_option synthInstance.maxSize 4096

noncomputable section

namespace Cert.Kernel.Hand

open Cert.Kernel Cert.Kernel.Gen Idealize.ShloMosaic

variable {F : FTy → Type} [FloatOps F]

/-- The 32-bit word `k·1024 + j` for a block number `k < 49` and a column `j < 1024` is the word of the
    natural number `1024·k + j` (no wrap: the number is below `2³¹`), and its SIGNED comparison with the
    word `50000` is the comparison of the natural numbers. -/
theorem colTest_eq (k j : ℕ) (hk : k < 49) (hj : j < 1024) :
    IntOp.cmpi .slt (IntOp.addi (Scalar.muli (BitVec.ofNat 32 k) 1024#32) (BitVec.ofNat 32 (0 * 1024 + j))) 50000#32
      = BitVec.ofBool (decide (1024 * k + j < 50000)) := by
  have hx : IntOp.addi (Scalar.muli (BitVec.ofNat 32 k) 1024#32) (BitVec.ofNat 32 (0 * 1024 + j))
      = BitVec.ofNat 32 (1024 * k + j) := by
    show BitVec.ofNat 32 k * BitVec.ofNat 32 1024 + BitVec.ofNat 32 (0 * 1024 + j) = BitVec.ofNat 32 (1024 * k + j)
    rw [← BitVec.ofNat_mul, ← BitVec.ofNat_add]
    congr 1
    omega
  rw [hx]
  show BitVec.ofBool ((BitVec.ofNat 32 (1024 * k + j)).slt (BitVec.ofNat 32 50000)) = _
  congr 1
  rw [BitVec.slt, WordArith.toInt_ofNat_small _ (by omega), WordArith.toInt_ofNat_small _ (by omega)]
  exact decide_eq_decide.mpr (by omega)

/-- The mask `(word = 1) AND (column test)` of the kernel body, as a vector. -/
def maskOf (i : grid0.Coords) (v9 : Vec F S1000x1024 .i32) : IVec S1000x1024 1 :=
  andi (cmpi .eq v9 (broadcast S1000x1024 1#32))
    (cmpi .slt (addi (broadcast S1000x1024 (Scalar.muli (BitVec.ofNat 32 (i 1).val) 1024#32))
        (iota .tc S1000x1024 32 [1] iota_S1000x1024_d1_w32)) (broadcast S1000x1024 50000#32))

/-- The mask at an index: the conjunction of the two tests, as one bit. -/
theorem maskOf_apply (i : grid0.Coords) (v9 : Vec F S1000x1024 .i32) (j : S1000x1024.Idx) :
    maskOf (F := F) i v9 j = IntOp.andi (IntOp.cmpi .eq (v9 j) 1#32)
      (BitVec.ofBool (decide (1024 * (i 1).val + (j 1).val < 50000))) := by
  have hk : (i 1).val < 49 := (i 1).isLt
  have hj : (j 1).val < 1024 := (j 1).isLt
  rw [← colTest_eq _ _ hk hj]
  rfl

theorem maskOf_congr (i : grid0.Coords) (v9 v9' : Vec F S1000x1024 .i32)
    (h : ∀ j : S1000x1024.Idx, 1024 * (i 1).val + (j 1).val < 50000 → v9 j = v9' j) :
    maskOf (F := F) i v9 = maskOf (F := F) i v9' := by
  funext j
  rw [maskOf_apply, maskOf_apply]
  by_cases hj : 1024 * (i 1).val + (j 1).val < 50000
  · rw [h j hj]
  · rw [decide_eq_false hj]
    show IntOp.cmpi .eq (v9 j) 1#32 &&& 0#1 = IntOp.cmpi .eq (v9' j) 1#32 &&& 0#1
    rw [BitVec.and_zero, BitVec.and_zero]

/-- The kernel body's arithmetic reads the staged words only through the mask. -/
theorem pay2_eq_maskOf (i : grid0.Coords) (v9 : Vec F S1000x1024 .i32) (v16 : Vec F S1000x37 .f32) (v18 : Vec F S1024x37 .bf16) :
    k0_pay2 i v9 v16 v18 =
      addf (shapeCast S1000x37 v16 shapeCasts_S1000x37_S1000x37)
        (matmul dot_S1000x1024_S1024x37_S1000x37_1_0_0_1_n_n none
          (truncf .bf16 (sitofp .f32 (extui 32 (maskOf (F := F) i v9) natLt_1_32)) bitsLt_bf16_f32)
          (shapeCast S1024x37 v18 shapeCasts_S1024x37_S1024x37) (constant S1000x37 .f32 0x00000000#32)) := rfl

theorem pay2_congr (i : grid0.Coords) (v9 v9' : Vec F S1000x1024 .i32) (v16 : Vec F S1000x37 .f32) (v18 : Vec F S1024x37 .bf16)
    (h : ∀ j : S1000x1024.Idx, 1024 * (i 1).val + (j 1).val < 50000 → v9 j = v9' j) :
    k0_pay2 i v9 v16 v18 = k0_pay2 i v9' v16 v18 := by
  rw [pay2_eq_maskOf, pay2_eq_maskOf, maskOf_congr i v9 v9' h]

end Cert.Kernel.Hand

end
-- ==== Proof.K.Dats.lean ====
/-
  The launch, grid point by grid point. The grid is 2 row blocks by 49 column blocks, column blocks running
  fastest: point t is row block t / 49, column block t % 49. At every point the pipeline fetches the block of
  membership words (1000 rows by 1024 columns; the last column block overhangs the array by 176 columns, and what
  the staging buffer holds there is not determined) and the block of table rows (1024 by 37); the accumulator
  block (1000 by 37) stays in its staging buffer through a row block's 49 points and is written back at the last.
  What the accumulator buffer holds after each point is stated by recursion on the point: at a row block's first
  point the body's sum over the zero block, afterwards the body's sum over what the point before left. The
  undetermined columns do not matter, because the body masks them by their column number.
-/
import proofs.«162163_j6107443495191_2_alg».proof.Proof.K.Body
import proofs.«162163_j6107443495191_2_alg».proof.Proof.K.PayCongr

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the pipeline fetches -/

/-- The membership words of row block and column block `t`: the part of the block inside the array. -/
def blk0 (c : Dev nD) (t : Fin cfg0.N) : (win0_0.xblock (grid0.coords t)).Idx → Elt F .i32 :=
  (win0_0.blk t).view.read (Elt F) (V m c main_arg2)
/-- The table rows of column block `t` (of the table with its column of ones and its zero rows). -/
def blk1 (c : Dev nD) (t : Fin cfg0.N) : (win0_1.xblock (grid0.coords t)).Idx → Elt F .bf16 :=
  (win0_1.blk t).view.read (Elt F) (V m c main_v58)
/-- The membership block filled out to the staging buffer's size with zero words past the array's end. -/
def X0 (c : Dev nD) (t : Fin cfg0.N) : Vec F S1000x1024 .i32 :=
  win0_0.fill (grid0.coords t) (fun _ => (0#32 : BitVec 32)) (blk0 m c t)

/-! ## The accumulator, point by point -/

/-- What the accumulator's staging buffer holds after the body at point `n`. -/
def acc (c : Dev nD) : (n : ℕ) → n < cfg0.N → Vec F S1000x37 .f32
  | 0, hn => k0_pay2 (grid0.coords ⟨0, hn⟩) (X0 m c ⟨0, hn⟩) (k0_pay1 (F := F)) (blk1 m c ⟨0, hn⟩)
  | n + 1, hn =>
    if (n + 1) % 49 = 0 then k0_pay2 (grid0.coords ⟨n + 1, hn⟩) (X0 m c ⟨n + 1, hn⟩) (k0_pay1 (F := F)) (blk1 m c ⟨n + 1, hn⟩)
    else k0_pay2 (grid0.coords ⟨n + 1, hn⟩) (X0 m c ⟨n + 1, hn⟩) (acc c n (Nat.lt_of_succ_lt hn)) (blk1 m c ⟨n + 1, hn⟩)

/-- At a row block's first point: the sum over the zero block. -/
theorem acc_first (c : Dev nD) (t : Fin cfg0.N) (h : t.val % 49 = 0) :
    acc m c t.val t.isLt = k0_pay2 (grid0.coords t) (X0 m c t) (k0_pay1 (F := F)) (blk1 m c t) := by
  obtain ⟨n, hn⟩ := t
  cases n with
  | zero => rfl
  | succ n => exact if_pos h

/-- At its other points: the sum over what the point before left. -/
theorem acc_next (c : Dev nD) (t : Fin cfg0.N) (h : ¬t.val % 49 = 0) :
    acc m c t.val t.isLt = k0_pay2 (grid0.coords t) (X0 m c t) (acc m c (t.val - 1) (Nat.lt_of_le_of_lt (Nat.sub_le _ _) t.isLt)) (blk1 m c t) := by
  obtain ⟨n, hn⟩ := t
  cases n with
  | zero => exact absurd (Nat.zero_mod _) h
  | succ n => exact if_neg h

/-! ## The per-point description the launch theorem takes -/

/-- Per core: the staged arrays as the launch finds them; after the body at point `t` the membership buffer at its
    block (zero-filled), the table buffer at its block, the accumulator buffer at `acc`; the body keeps nothing else. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => blk1 m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0 m c t := by dsimp only [dats]
theorem after_1 (c : Dev nD) (t : Fin cfg0.N) : (dats m 0 c).after 1 t = blk1 m c t := by dsimp only [dats]
theorem after_2 (c : Dev nD) (t : Fin cfg0.N) : (dats m 0 c).after 2 t = acc m c t.val t.isLt := by dsimp only [dats]

/-! ## What the body finds -/

/-- The membership buffer, just fetched: the block inside the array, anything past it. -/
theorem before_0 (c : Dev nD) (t : Fin cfg0.N) (d) :
    (dats m 0 c).before 0 t d = win0_0.fill (grid0.coords t) d (blk0 m c t) := by
  rw [Dat.before_fetched _ 0 t (fetch0_0 t)]
  unfold Dat.fetched Dat.blockOf blk0; rw [A_eq]; try rfl

/-- The table buffer, just fetched: its block. -/
theorem before_1 (c : Dev nD) (t : Fin cfg0.N) (d) : (dats m 0 c).before 1 t d = blk1 m c t := by
  rw [Dat.before_fetched _ 1 t (fetch0_1 t)]
  unfold Dat.fetched Dat.blockOf blk1; rw [A_eq]; try rfl

/-- The accumulator buffer at a row block's first point: anything (nothing was kept for it). -/
theorem before_2_first (c : Dev nD) (t : Fin cfg0.N) (h : t.val % 49 = 0) (d) : (dats m 0 c).before 2 t d = d := by
  refine Dat.before_out_reset _ 2 rfl t ?_ d
  by_cases h0 : t.val = 0
  · exact .inl h0
  · exact .inr ⟨h0, (flush0_2 _).mpr (by show (t.val - 1) % 49 = 48; omega)⟩

/-- At its other points: what the point before left. -/
theorem before_2_next (c : Dev nD) (t : Fin cfg0.N) (h : ¬t.val % 49 = 0) (d) :
    (dats m 0 c).before 2 t d = acc m c (t.val - 1) (Nat.lt_of_le_of_lt (Nat.sub_le _ _) t.isLt) := by
  have h0 : t.val ≠ 0 := fun e => h (by rw [e])
  have hfl : (cfg0.win 2).flush ⟨t.val - 1, Nat.lt_of_le_of_lt (Nat.sub_le _ _) t.isLt⟩ = false := by
    cases hb : (cfg0.win 2).flush ⟨t.val - 1, Nat.lt_of_le_of_lt (Nat.sub_le _ _) t.isLt⟩
    · rfl
    · exfalso; have := (flush0_2 _).mp hb; dsimp only at this; omega
  rw [Dat.before_out_kept _ 2 rfl t h0 hfl (fun _ => rfl) (fun _ _ => rfl) d, after_2]

/-! ## Past the array's end the body's mask is zero -/

/-- The rows a fetch of the membership block moves are all 1000, at every point. -/
theorem xsize0_0 : ∀ t : Fin cfg0.N, win0_0.xsize (grid0.coords t) 0 = 1000 :=
  (by decide +kernel : ∀ t : Fin grid0.N, win0_0.xsize (grid0.coords t) 0 = 1000)
/-- The columns it moves are those inside the array. -/
theorem xsize0_1 : ∀ t : Fin cfg0.N, win0_0.xsize (grid0.coords t) 1 = min 1024 (50000 - 1024 * (grid0.coords t 1).val) :=
  (by decide +kernel : ∀ t : Fin grid0.N, win0_0.xsize (grid0.coords t) 1 = min 1024 (50000 - 1024 * (grid0.coords t 1).val))

/-- Two fillings of the membership block agree at every column inside the array. -/
theorem fill_agree (t : Fin cfg0.N) (d d' : S1000x1024.Idx → BitVec 32) (g : (win0_0.xblock (grid0.coords t)).Idx → BitVec 32)
    (j : S1000x1024.Idx) (hj : 1024 * (grid0.coords t 1).val + (j 1).val < 50000) :
    win0_0.fill (grid0.coords t) d g j = win0_0.fill (grid0.coords t) d' g j := by
  have hm : win0_0.moved (grid0.coords t) j = true := (win0_0.moved_iff _ j).mpr fun a => by
    match a with
    | ⟨0, _⟩ => have := (j 0).isLt; rw [show win0_0.xsize (grid0.coords t) ⟨0, _⟩ = 1000 from xsize0_0 t]; exact this
    | ⟨1, _⟩ => have := (j 1).isLt; rw [show win0_0.xsize (grid0.coords t) ⟨1, _⟩ = _ from xsize0_1 t]; show (j 1).val < _; have h2 : (j 1).val < 1024 := this; omega
  unfold Window.fill; rw [dif_pos hm, dif_pos hm]

/-- So the body's sum does not depend on what the staging buffer holds past the array's end. -/
theorem pay2_fill (t : Fin cfg0.N) (d : S1000x1024.Idx → BitVec 32) (g : (win0_0.xblock (grid0.coords t)).Idx → BitVec 32)
    (v16 : Vec F S1000x37 .f32) (v18 : Vec F S1024x37 .bf16) :
    k0_pay2 (grid0.coords t) (win0_0.fill (grid0.coords t) d g) v16 v18
      = k0_pay2 (grid0.coords t) (win0_0.fill (grid0.coords t) (fun _ => (0#32 : BitVec 32)) g) v16 v18 :=
  pay2_congr (grid0.coords t) _ _ v16 v18 fun j hj => fill_agree t d _ g j hj

end Cert.Kernel.Hand

end
-- ==== Proof.K.Frame.lean ====
/-
  The launch runs to its end, and what each buffer then holds. At every grid point the body is handed the two
  fetched blocks and the accumulator buffer, and hands them back with the accumulator at the recursion's value
  for that point: at a row block's first point by the run that first zeroes it, elsewhere by the run that adds to
  what the point before left. What the membership buffer holds past the array's end changes nothing, the body's
  mask being zero there. With that, the library's theorem for "host lines, one launch, host lines" gives the run,
  and reading its conclusion at the argument arrays gives that they end as they began.
-/
import proofs.«162163_j6107443495191_2_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point -/

set_option maxHeartbeats 4000000 in
/-- The body at point `t`, handed the staging buffers as the pipeline leaves them, hands them back as the
    per-point description says. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ (∃ d, owns (c : Thread nD τ) (ms0 t) fullShare (win0_0.fill (grid0.coords t) d (win0_0.cut (grid0.coords t) ((dats m 0 c).after 0 t))))
            ∗ owns (c : Thread nD τ) (ms1 t) fullShare ((dats m 0 c).after 1 t)
            ∗ owns (c : Thread nD τ) (ms2 t) fullShare ((dats m 0 c).after 2 t))) := by
  rw [show (dats m 0 c).Φ t.succ = (dats m 0 c).Φ t.castSucc from rfl,
    show (dats m 0 c).owesAt () t.succ = (dats m 0 c).owesAt () t.castSucc from rfl]
  rw [after_0, after_1, after_2]
  have hcut : ∀ d, win0_0.fill (grid0.coords t) d (win0_0.cut (grid0.coords t) (X0 m c t)) = win0_0.fill (grid0.coords t) d (blk0 m c t) := fun d => by
    unfold X0; rw [Window.cut_fill]
  simp only [before_0, before_1, hcut]
  by_cases h : t.val % 49 = 0
  · have hc : isFirst (grid0.coords t) := (isFirst_iff t).mpr h
    simp only [before_2_first m c t h]
    iintro ⟨HΦ, Ho, ⟨%d0, H0⟩, ⟨%d1, H1⟩, ⟨%d2, H2⟩⟩
    iapply ((runFirst c (grid0.coords t) (ms0 t) (hs0 t) (ms1 t) (hs1 t) (ms2 t) (hs2 t) hc (win0_0.fill (grid0.coords t) d0 (blk0 m c t)) (blk1 m c t)).2 Set.univ _)
    isplitl [H0]; · iexact H0
    isplitl [H1]; · iexact H1
    isplitl [H2]; · iexists _; iexact H2
    iintro ⟨H0, H1, ⟨%f, H2⟩⟩
    isplitl [HΦ]; · iexact HΦ
    isplitl [Ho]; · iexact Ho
    isplitl [H0]; · iexists d0; iexact H0
    isplitl [H1]; · iexact H1
    rw [acc_first m c t h]; unfold X0
    rw [← pay2_fill t d0 (blk0 m c t), ← leftFirst_eq c (grid0.coords t) (ms0 t) (hs0 t) (ms1 t) (hs1 t) (ms2 t) (hs2 t) hc]
    unfold leftFirst owns
    iexists _; isplitr
    swap; · iexact H2
    ipureintro; exact View.read_writes_of_cover _ _ _ _ _ (cover_first c (grid0.coords t) (ms0 t) (hs0 t) (ms1 t) (hs1 t) (ms2 t) (hs2 t) hc _ _)
  · have hc : ¬isFirst (grid0.coords t) := fun hh => h ((isFirst_iff t).mp hh)
    simp only [before_2_next m c t h]
    iintro ⟨HΦ, Ho, ⟨%d0, H0⟩, ⟨%d1, H1⟩, ⟨%d2, H2⟩⟩
    iapply ((runNext c (grid0.coords t) (ms0 t) (hs0 t) (ms1 t) (hs1 t) (ms2 t) (hs2 t) hc (win0_0.fill (grid0.coords t) d0 (blk0 m c t)) (blk1 m c t) (acc m c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%f, H2⟩⟩
    isplitl [HΦ]; · iexact HΦ
    isplitl [Ho]; · iexact Ho
    isplitl [H0]; · iexists d0; iexact H0
    isplitl [H1]; · iexact H1
    rw [acc_next m c t h]; unfold X0
    rw [← pay2_fill t d0 (blk0 m c t), ← leftNext_eq c (grid0.coords t) (ms0 t) (hs0 t) (ms1 t) (hs1 t) (ms2 t) (hs2 t) hc]
    unfold leftNext owns
    iexists _; isplitr
    swap; · iexact H2
    ipureintro; exact View.read_writes_of_cover _ _ _ _ _ (cover_next c (grid0.coords t) (ms0 t) (hs0 t) (ms1 t) (hs1 t) (ms2 t) (hs2 t) hc _ _ _)

/-- The same at every point, in the form the launch theorem asks for. -/
theorem body_obligation (c : Dev nD) : BodyObligationLoose (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of the program ends, with every staged array at
    what the per-point description computes and every other buffer as the last host lines leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Read at the argument arrays, the run's conclusion says they end as they began. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 0).trans ((((dats m) 0 c).arrAt_in 0 rfl _).trans ((A_eq m c 0).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c)⟩

/-- The program runs to its end, faults nowhere, and leaves its nine argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KI.FrameKit.lean ====
/-
  The program around its one kernel launch. The host lines before the launch (six table look-ups joined side by
  side, a column of ones appended, the rounding to the narrow format, 176 zero rows appended) write only their own
  result buffers, so each argument array is still what it was when the launch begins; the five host lines after it
  (two column slices, a spread, a quotient, a join) write only theirs, so each argument array ends as it began.
  This file states those two facts per argument, the program as "lines, launch, lines", and the step from the
  launch theorem's conclusion to "the arguments are unchanged".
-/
import proofs.«162163_j6107443495191_2_alg».proof.Proof.Gen.KernelIdeal.Launch
import proofs.«162163_j6107443495191_2_alg».proof.Proof.Gen.KernelIdeal.Skeleton
import proofs.«162163_j6107443495191_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch begins -/

/-- What each buffer of a core holds when the launch begins: the launch memory after the host lines before it. -/
abbrev V0 (c : Dev nD) : Valuation τ sig (Elt F) := StableHlo.after (List.flatten [hostOps0, hostOps0_1]) (fun b => m (c, b))
/-- The same, read at one buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the launch, the remaining host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The lines after the launch touch only unscoped buffers of the core. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array the launch stages: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays before and after -/

/-- No host line before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))

/-- No host line after the launch writes argument 0 either: it ends as it began. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the launch writes argument 1 either: it ends as it began. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line after the launch writes argument 3 either: it ends as it began. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the launch writes argument 4 either: it ends as it began. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line after the launch writes argument 5 either: it ends as it began. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line after the launch writes argument 6 either: it ends as it began. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line after the launch writes argument 7 either: it ends as it began. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line after the launch writes argument 8 either: it ends as it began. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The blocks -/

/-- The part inside its array of window `w`'s block at grid point `t`, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## From the launch theorem's conclusion to "the arguments are unchanged" -/

/-- For any per-point description of the staging buffers whose arrays are the ones the launch finds: if the run ends
    with every staged array at the described contents and every other buffer as the last host lines leave it, then
    every argument array ends as it began — the staged one because it is only read, the others because no line
    writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 0).trans (((dats 0 c).arrAt_in 0 rfl _).trans ((hA c 0).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

end Cert.KernelIdeal.Hand

end
-- ==== Proof.KI.Body.lean ====
/-
  The kernel body at one grid point, on any three whole staging buffers. The body reads the block of membership
  words and the block of table rows, and adds their masked product to the accumulator block; at the first column
  block (second grid coordinate zero) it first overwrites the accumulator with zeros. Two cases, by that test. In
  each the run ends with the two input buffers as they were and the accumulator holding the arithmetic term
  `k0_pay2` of what was read: over the zero block `k0_pay1` in the first case, over what the buffer held before in
  the other.
-/
import proofs.«162163_j6107443495191_2_alg».proof.Proof.KI.FrameKit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The test on the second grid coordinate -/

/-- The body's test "this is the first column block", as the body computes it from the grid coordinates. -/
abbrev isFirst (i : grid0.Coords) : Prop := (Scalar.cmpi .ne (Scalar.extui (Scalar.cmpi .eq (BitVec.ofNat 32 (i 1).val) 0#32)) 0#32) = 1#1
/-- It holds exactly at the grid points whose number is a multiple of 49 (the row blocks' first points). -/
theorem isFirst_iff : ∀ t : Fin cfg0.N, isFirst (grid0.coords t) ↔ t.val % 49 = 0 :=
  (by decide +kernel : ∀ t : Fin grid0.N, isFirst (grid0.coords t) ↔ t.val % 49 = 0)

/-! ## The staging buffers at a grid point -/

/-- One staging buffer of the accumulator window, through which its contents are stated. -/
abbrev VAcc : View sig .tc .vmem S1000x37 .f32 := (Memref.whole cc0_stg2_0 : Memref sig .tc .vmem S1000x37 .f32).view
abbrev ms0 (t : Fin cfg0.N) : Memref sig .tc .vmem S1000x1024 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x37 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1000x37 .f32 := win0_2.stage (cfg0.slots t 2)
abbrev hs2 (t : Fin cfg0.N) : (ms2 t).IsWhole := hstage0_2 ((cfg0.slots t 2).cast nbuf0_2)

/-! ## The two runs -/

set_option maxHeartbeats 4000000 in
/-- First column block: whatever the accumulator buffer held, the body leaves in it the stores listed (last first):
    the zero block, then the sum. -/
noncomputable def runFirst (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : isFirst i)
    (x0 : Vec F S1000x1024 .i32) (x1 : Vec F S1024x37 .bf16) :
    { L : List (View.Piece (Elt F) S1000x37 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc0__masked_mean_kernel i arg2 harg2 arg3 harg3 arg4 harg4) K } := by
  refine ⟨?_, fun E K => ?run⟩
  case run =>
    simp only [cc0__masked_mean_kernel_eq_skeleton]; unfold cc0__masked_mean_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- Later column blocks: the accumulator buffer holding `xs`, the body leaves in it one store: the sum over `xs`. -/
noncomputable def runNext (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : ¬isFirst i)
    (x0 : Vec F S1000x1024 .i32) (x1 : Vec F S1024x37 .bf16) (xs : Vec F S1000x37 .f32) :
    { L : List (View.Piece (Elt F) S1000x37 .f32) //
      ∀ (E : Set ℕ) (K : PUnit → sProp 𝕄),
        iprop(owns (c : Thread nD τ) arg2 fullShare x0 ∗ owns (c : Thread nD τ) arg3 fullShare x1 ∗ owns (c : Thread nD τ) arg4 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc0__masked_mean_kernel i arg2 harg2 arg3 harg3 arg4 harg4) K } := by
  refine ⟨?_, fun E K => ?run⟩
  case run =>
    simp only [cc0__masked_mean_kernel_eq_skeleton]; unfold cc0__masked_mean_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What the runs leave, read back -/

/-- The stores of the first case cover the accumulator block. -/
theorem cover_first (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : isFirst i)
    (x0 : Vec F S1000x1024 .i32) (x1 : Vec F S1024x37 .bf16) (y : S1000x37.Idx) :
    ∃ pc ∈ (runFirst c i arg2 harg2 arg3 harg3 arg4 harg4 hc x0 x1).1, y ∈ pc.1.set :=
  View.cover_of_tiledL (runFirst c i arg2 harg2 arg3 harg3 arg4 harg4 hc x0 x1).1 S1000x37.size (by sl_kernel_rfl) y

/-- So do the store of the other case. -/
theorem cover_next (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : ¬isFirst i)
    (x0 : Vec F S1000x1024 .i32) (x1 : Vec F S1024x37 .bf16) (xs : Vec F S1000x37 .f32) (y : S1000x37.Idx) :
    ∃ pc ∈ (runNext c i arg2 harg2 arg3 harg3 arg4 harg4 hc x0 x1 xs).1, y ∈ pc.1.set :=
  View.cover_of_tiledL (runNext c i arg2 harg2 arg3 harg3 arg4 harg4 hc x0 x1 xs).1 S1000x37.size (by sl_kernel_rfl) y

/-- What the first case leaves in the accumulator buffer. -/
def leftFirst (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : isFirst i)
    (x0 : Vec F S1000x1024 .i32) (x1 : Vec F S1024x37 .bf16) : Vec F S1000x37 .f32 :=
  VAcc.read (Elt F) (VAcc.writes (Elt F) VAcc.junk (runFirst c i arg2 harg2 arg3 harg3 arg4 harg4 hc x0 x1).1)

/-- What the other case leaves there. -/
def leftNext (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : ¬isFirst i)
    (x0 : Vec F S1000x1024 .i32) (x1 : Vec F S1024x37 .bf16) (xs : Vec F S1000x37 .f32) : Vec F S1000x37 .f32 :=
  VAcc.read (Elt F) (VAcc.writes (Elt F) VAcc.junk (runNext c i arg2 harg2 arg3 harg3 arg4 harg4 hc x0 x1 xs).1)

/-- Read back, the first case's stores are the body's sum over the zero block. -/
theorem leftFirst_eq (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : isFirst i)
    (x0 : Vec F S1000x1024 .i32) (x1 : Vec F S1024x37 .bf16) :
    leftFirst c i arg2 harg2 arg3 harg3 arg4 harg4 hc x0 x1 = k0_pay2 i x0 (k0_pay1 (F := F)) x1 := by
  have hz : (![0, 0] : Fin 2 → Nat) = fun _ => 0 := funext fun a => by fin_cases a <;> rfl
  unfold leftFirst
  rw [View.read_writes_eq_canon _ _ _ (cover_first c i arg2 harg2 arg3 harg3 arg4 harg4 hc x0 x1)]
  unfold runFirst
  dsimp only
  sl_unfold_words
  rw [View.canon_cons_unit_zero hz]
  simp only [View.readAt_eq_ld, harg2.read_unread, harg3.read_unread, View.ld_unit_zero (S := S1000x1024) hz,
    View.ld_unit_zero (S := S1024x37) hz]
  rw [View.readCov_unit_zero (S := S1000x37) arg4.view hz]

/-- Read back, the other case's store is the body's sum over what the buffer held. -/
theorem leftNext_eq (c : Dev nD) (i : grid0.Coords) (arg2 : Memref sig .tc .vmem S1000x1024 .i32) (harg2 : arg2.IsWhole) (arg3 : Memref sig .tc .vmem S1024x37 .bf16) (harg3 : arg3.IsWhole) (arg4 : Memref sig .tc .vmem S1000x37 .f32) (harg4 : arg4.IsWhole) (hc : ¬isFirst i)
    (x0 : Vec F S1000x1024 .i32) (x1 : Vec F S1024x37 .bf16) (xs : Vec F S1000x37 .f32) :
    leftNext c i arg2 harg2 arg3 harg3 arg4 harg4 hc x0 x1 xs = k0_pay2 i x0 xs x1 := by
  have hz : (![0, 0] : Fin 2 → Nat) = fun _ => 0 := funext fun a => by fin_cases a <;> rfl
  unfold leftNext
  rw [View.read_writes_eq_canon _ _ _ (cover_next c i arg2 harg2 arg3 harg3 arg4 harg4 hc x0 x1 xs)]
  unfold runNext
  dsimp only
  sl_unfold_words
  rw [View.canon_unit_zero hz]
  simp only [View.readAt_eq_ld, harg2.read_unread, harg3.read_unread, harg4.read_unread, View.ld_unit_zero (S := S1000x1024) hz,
    View.ld_unit_zero (S := S1024x37) hz, View.ld_unit_zero (S := S1000x37) hz]

end Cert.KernelIdeal.Hand

end
-- ==== Proof.KI.PayCongr.lean ====
/- The kernel body's arithmetic does not depend on the staged words at columns past the array's end:
   there the column test `1024·k + j < 50000` is 0, and `andi _ 0 = 0`. Generic in the float values. -/
import proofs.«162163_j6107443495191_2_alg».proof.Proof.Gen.KernelIdeal.Skeleton
import Idealize.ShloMosaic.Lib.WordArith

set_option synthInstance.maxSize 4096

noncomputable section

namespace Cert.KernelIdeal.Hand

open Cert.KernelIdeal Cert.KernelIdeal.Gen Idealize.ShloMosaic

variable {F : FTy → Type} [FloatOps F]

/-- The 32-bit word `k·1024 + j` for a block number `k < 49` and a column `j < 1024` is the word of the
    natural number `1024·k + j` (no wrap: the number is below `2³¹`), and its SIGNED comparison with the
    word `50000` is the comparison of the natural numbers. -/
theorem colTest_eq (k j : ℕ) (hk : k < 49) (hj : j < 1024) :
    IntOp.cmpi .slt (IntOp.addi (Scalar.muli (BitVec.ofNat 32 k) 1024#32) (BitVec.ofNat 32 (0 * 1024 + j))) 50000#32
      = BitVec.ofBool (decide (1024 * k + j < 50000)) := by
  have hx : IntOp.addi (Scalar.muli (BitVec.ofNat 32 k) 1024#32) (BitVec.ofNat 32 (0 * 1024 + j))
      = BitVec.ofNat 32 (1024 * k + j) := by
    show BitVec.ofNat 32 k * BitVec.ofNat 32 1024 + BitVec.ofNat 32 (0 * 1024 + j) = BitVec.ofNat 32 (1024 * k + j)
    rw [← BitVec.ofNat_mul, ← BitVec.ofNat_add]
    congr 1
    omega
  rw [hx]
  show BitVec.ofBool ((BitVec.ofNat 32 (1024 * k + j)).slt (BitVec.ofNat 32 50000)) = _
  congr 1
  rw [BitVec.slt, WordArith.toInt_ofNat_small _ (by omega), WordArith.toInt_ofNat_small _ (by omega)]
  exact decide_eq_decide.mpr (by omega)

/-- The mask `(word = 1) AND (column test)` of the kernel body, as a vector. -/
def maskOf (i : grid0.Coords) (v9 : Vec F S1000x1024 .i32) : IVec S1000x1024 1 :=
  andi (cmpi .eq v9 (broadcast S1000x1024 1#32))
    (cmpi .slt (addi (broadcast S1000x1024 (Scalar.muli (BitVec.ofNat 32 (i 1).val) 1024#32))
        (iota .tc S1000x1024 32 [1] iota_S1000x1024_d1_w32)) (broadcast S1000x1024 50000#32))

/-- The mask at an index: the conjunction of the two tests, as one bit. -/
theorem maskOf_apply (i : grid0.Coords) (v9 : Vec F S1000x1024 .i32) (j : S1000x1024.Idx) :
    maskOf (F := F) i v9 j = IntOp.andi (IntOp.cmpi .eq (v9 j) 1#32)
      (BitVec.ofBool (decide (1024 * (i 1).val + (j 1).val < 50000))) := by
  have hk : (i 1).val < 49 := (i 1).isLt
  have hj : (j 1).val < 1024 := (j 1).isLt
  rw [← colTest_eq _ _ hk hj]
  rfl

theorem maskOf_congr (i : grid0.Coords) (v9 v9' : Vec F S1000x1024 .i32)
    (h : ∀ j : S1000x1024.Idx, 1024 * (i 1).val + (j 1).val < 50000 → v9 j = v9' j) :
    maskOf (F := F) i v9 = maskOf (F := F) i v9' := by
  funext j
  rw [maskOf_apply, maskOf_apply]
  by_cases hj : 1024 * (i 1).val + (j 1).val < 50000
  · rw [h j hj]
  · rw [decide_eq_false hj]
    show IntOp.cmpi .eq (v9 j) 1#32 &&& 0#1 = IntOp.cmpi .eq (v9' j) 1#32 &&& 0#1
    rw [BitVec.and_zero, BitVec.and_zero]

/-- The kernel body's arithmetic reads the staged words only through the mask. -/
theorem pay2_eq_maskOf (i : grid0.Coords) (v9 : Vec F S1000x1024 .i32) (v16 : Vec F S1000x37 .f32) (v18 : Vec F S1024x37 .bf16) :
    k0_pay2 i v9 v16 v18 =
      addf (shapeCast S1000x37 v16 shapeCasts_S1000x37_S1000x37)
        (matmul dot_S1000x1024_S1024x37_S1000x37_1_0_0_1_n_n none
          (truncf .bf16 (sitofp .f32 (extui 32 (maskOf (F := F) i v9) natLt_1_32)) bitsLt_bf16_f32)
          (shapeCast S1024x37 v18 shapeCasts_S1024x37_S1024x37) (constant S1000x37 .f32 0x00000000#32)) := rfl

theorem pay2_congr (i : grid0.Coords) (v9 v9' : Vec F S1000x1024 .i32) (v16 : Vec F S1000x37 .f32) (v18 : Vec F S1024x37 .bf16)
    (h : ∀ j : S1000x1024.Idx, 1024 * (i 1).val + (j 1).val < 50000 → v9 j = v9' j) :
    k0_pay2 i v9 v16 v18 = k0_pay2 i v9' v16 v18 := by
  rw [pay2_eq_maskOf, pay2_eq_maskOf, maskOf_congr i v9 v9' h]

end Cert.KernelIdeal.Hand

end
-- ==== Proof.KI.Dats.lean ====
/-
  The launch, grid point by grid point. The grid is 2 row blocks by 49 column blocks, column blocks running
  fastest: point t is row block t / 49, column block t % 49. At every point the pipeline fetches the block of
  membership words (1000 rows by 1024 columns; the last column block overhangs the array by 176 columns, and what
  the staging buffer holds there is not determined) and the block of table rows (1024 by 37); the accumulator
  block (1000 by 37) stays in its staging buffer through a row block's 49 points and is written back at the last.
  What the accumulator buffer holds after each point is stated by recursion on the point: at a row block's first
  point the body's sum over the zero block, afterwards the body's sum over what the point before left. The
  undetermined columns do not matter, because the body masks them by their column number.
-/
import proofs.«162163_j6107443495191_2_alg».proof.Proof.KI.Body
import proofs.«162163_j6107443495191_2_alg».proof.Proof.KI.PayCongr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the pipeline fetches -/

/-- The membership words of row block and column block `t`: the part of the block inside the array. -/
def blk0 (c : Dev nD) (t : Fin cfg0.N) : (win0_0.xblock (grid0.coords t)).Idx → Elt F .i32 :=
  (win0_0.blk t).view.read (Elt F) (V m c main_arg2)
/-- The table rows of column block `t` (of the table with its column of ones and its zero rows). -/
def blk1 (c : Dev nD) (t : Fin cfg0.N) : (win0_1.xblock (grid0.coords t)).Idx → Elt F .bf16 :=
  (win0_1.blk t).view.read (Elt F) (V m c main_v58)
/-- The membership block filled out to the staging buffer's size with zero words past the array's end. -/
def X0 (c : Dev nD) (t : Fin cfg0.N) : Vec F S1000x1024 .i32 :=
  win0_0.fill (grid0.coords t) (fun _ => (0#32 : BitVec 32)) (blk0 m c t)

/-! ## The accumulator, point by point -/

/-- What the accumulator's staging buffer holds after the body at point `n`. -/
def acc (c : Dev nD) : (n : ℕ) → n < cfg0.N → Vec F S1000x37 .f32
  | 0, hn => k0_pay2 (grid0.coords ⟨0, hn⟩) (X0 m c ⟨0, hn⟩) (k0_pay1 (F := F)) (blk1 m c ⟨0, hn⟩)
  | n + 1, hn =>
    if (n + 1) % 49 = 0 then k0_pay2 (grid0.coords ⟨n + 1, hn⟩) (X0 m c ⟨n + 1, hn⟩) (k0_pay1 (F := F)) (blk1 m c ⟨n + 1, hn⟩)
    else k0_pay2 (grid0.coords ⟨n + 1, hn⟩) (X0 m c ⟨n + 1, hn⟩) (acc c n (Nat.lt_of_succ_lt hn)) (blk1 m c ⟨n + 1, hn⟩)

/-- At a row block's first point: the sum over the zero block. -/
theorem acc_first (c : Dev nD) (t : Fin cfg0.N) (h : t.val % 49 = 0) :
    acc m c t.val t.isLt = k0_pay2 (grid0.coords t) (X0 m c t) (k0_pay1 (F := F)) (blk1 m c t) := by
  obtain ⟨n, hn⟩ := t
  cases n with
  | zero => rfl
  | succ n => exact if_pos h

/-- At its other points: the sum over what the point before left. -/
theorem acc_next (c : Dev nD) (t : Fin cfg0.N) (h : ¬t.val % 49 = 0) :
    acc m c t.val t.isLt = k0_pay2 (grid0.coords t) (X0 m c t) (acc m c (t.val - 1) (Nat.lt_of_le_of_lt (Nat.sub_le _ _) t.isLt)) (blk1 m c t) := by
  obtain ⟨n, hn⟩ := t
  cases n with
  | zero => exact absurd (Nat.zero_mod _) h
  | succ n => exact if_neg h

/-! ## The per-point description the launch theorem takes -/

/-- Per core: the staged arrays as the launch finds them; after the body at point `t` the membership buffer at its
    block (zero-filled), the table buffer at its block, the accumulator buffer at `acc`; the body keeps nothing else. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => blk1 m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0 m c t := by dsimp only [dats]
theorem after_1 (c : Dev nD) (t : Fin cfg0.N) : (dats m 0 c).after 1 t = blk1 m c t := by dsimp only [dats]
theorem after_2 (c : Dev nD) (t : Fin cfg0.N) : (dats m 0 c).after 2 t = acc m c t.val t.isLt := by dsimp only [dats]

/-! ## What the body finds -/

/-- The membership buffer, just fetched: the block inside the array, anything past it. -/
theorem before_0 (c : Dev nD) (t : Fin cfg0.N) (d) :
    (dats m 0 c).before 0 t d = win0_0.fill (grid0.coords t) d (blk0 m c t) := by
  rw [Dat.before_fetched _ 0 t (fetch0_0 t)]
  unfold Dat.fetched Dat.blockOf blk0; rw [A_eq]; try rfl

/-- The table buffer, just fetched: its block. -/
theorem before_1 (c : Dev nD) (t : Fin cfg0.N) (d) : (dats m 0 c).before 1 t d = blk1 m c t := by
  rw [Dat.before_fetched _ 1 t (fetch0_1 t)]
  unfold Dat.fetched Dat.blockOf blk1; rw [A_eq]; try rfl

/-- The accumulator buffer at a row block's first point: anything (nothing was kept for it). -/
theorem before_2_first (c : Dev nD) (t : Fin cfg0.N) (h : t.val % 49 = 0) (d) : (dats m 0 c).before 2 t d = d := by
  refine Dat.before_out_reset _ 2 rfl t ?_ d
  by_cases h0 : t.val = 0
  · exact .inl h0
  · exact .inr ⟨h0, (flush0_2 _).mpr (by show (t.val - 1) % 49 = 48; omega)⟩

/-- At its other points: what the point before left. -/
theorem before_2_next (c : Dev nD) (t : Fin cfg0.N) (h : ¬t.val % 49 = 0) (d) :
    (dats m 0 c).before 2 t d = acc m c (t.val - 1) (Nat.lt_of_le_of_lt (Nat.sub_le _ _) t.isLt) := by
  have h0 : t.val ≠ 0 := fun e => h (by rw [e])
  have hfl : (cfg0.win 2).flush ⟨t.val - 1, Nat.lt_of_le_of_lt (Nat.sub_le _ _) t.isLt⟩ = false := by
    cases hb : (cfg0.win 2).flush ⟨t.val - 1, Nat.lt_of_le_of_lt (Nat.sub_le _ _) t.isLt⟩
    · rfl
    · exfalso; have := (flush0_2 _).mp hb; dsimp only at this; omega
  rw [Dat.before_out_kept _ 2 rfl t h0 hfl (fun _ => rfl) (fun _ _ => rfl) d, after_2]

/-! ## Past the array's end the body's mask is zero -/

/-- The rows a fetch of the membership block moves are all 1000, at every point. -/
theorem xsize0_0 : ∀ t : Fin cfg0.N, win0_0.xsize (grid0.coords t) 0 = 1000 :=
  (by decide +kernel : ∀ t : Fin grid0.N, win0_0.xsize (grid0.coords t) 0 = 1000)
/-- The columns it moves are those inside the array. -/
theorem xsize0_1 : ∀ t : Fin cfg0.N, win0_0.xsize (grid0.coords t) 1 = min 1024 (50000 - 1024 * (grid0.coords t 1).val) :=
  (by decide +kernel : ∀ t : Fin grid0.N, win0_0.xsize (grid0.coords t) 1 = min 1024 (50000 - 1024 * (grid0.coords t 1).val))

/-- Two fillings of the membership block agree at every column inside the array. -/
theorem fill_agree (t : Fin cfg0.N) (d d' : S1000x1024.Idx → BitVec 32) (g : (win0_0.xblock (grid0.coords t)).Idx → BitVec 32)
    (j : S1000x1024.Idx) (hj : 1024 * (grid0.coords t 1).val + (j 1).val < 50000) :
    win0_0.fill (grid0.coords t) d g j = win0_0.fill (grid0.coords t) d' g j := by
  have hm : win0_0.moved (grid0.coords t) j = true := (win0_0.moved_iff _ j).mpr fun a => by
    match a with
    | ⟨0, _⟩ => have := (j 0).isLt; rw [show win0_0.xsize (grid0.coords t) ⟨0, _⟩ = 1000 from xsize0_0 t]; exact this
    | ⟨1, _⟩ => have := (j 1).isLt; rw [show win0_0.xsize (grid0.coords t) ⟨1, _⟩ = _ from xsize0_1 t]; show (j 1).val < _; have h2 : (j 1).val < 1024 := this; omega
  unfold Window.fill; rw [dif_pos hm, dif_pos hm]

/-- So the body's sum does not depend on what the staging buffer holds past the array's end. -/
theorem pay2_fill (t : Fin cfg0.N) (d : S1000x1024.Idx → BitVec 32) (g : (win0_0.xblock (grid0.coords t)).Idx → BitVec 32)
    (v16 : Vec F S1000x37 .f32) (v18 : Vec F S1024x37 .bf16) :
    k0_pay2 (grid0.coords t) (win0_0.fill (grid0.coords t) d g) v16 v18
      = k0_pay2 (grid0.coords t) (win0_0.fill (grid0.coords t) (fun _ => (0#32 : BitVec 32)) g) v16 v18 :=
  pay2_congr (grid0.coords t) _ _ v16 v18 fun j hj => fill_agree t d _ g j hj

end Cert.KernelIdeal.Hand

end
-- ==== Proof.KI.Frame.lean ====
/-
  The launch runs to its end, and what each buffer then holds. At every grid point the body is handed the two
  fetched blocks and the accumulator buffer, and hands them back with the accumulator at the recursion's value
  for that point: at a row block's first point by the run that first zeroes it, elsewhere by the run that adds to
  what the point before left. What the membership buffer holds past the array's end changes nothing, the body's
  mask being zero there. With that, the library's theorem for "host lines, one launch, host lines" gives the run,
  and reading its conclusion at the argument arrays gives that they end as they began.
-/
import proofs.«162163_j6107443495191_2_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point -/

set_option maxHeartbeats 4000000 in
/-- The body at point `t`, handed the staging buffers as the pipeline leaves them, hands them back as the
    per-point description says. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ (∃ d, owns (c : Thread nD τ) (ms0 t) fullShare (win0_0.fill (grid0.coords t) d (win0_0.cut (grid0.coords t) ((dats m 0 c).after 0 t))))
            ∗ owns (c : Thread nD τ) (ms1 t) fullShare ((dats m 0 c).after 1 t)
            ∗ owns (c : Thread nD τ) (ms2 t) fullShare ((dats m 0 c).after 2 t))) := by
  rw [show (dats m 0 c).Φ t.succ = (dats m 0 c).Φ t.castSucc from rfl,
    show (dats m 0 c).owesAt () t.succ = (dats m 0 c).owesAt () t.castSucc from rfl]
  rw [after_0, after_1, after_2]
  have hcut : ∀ d, win0_0.fill (grid0.coords t) d (win0_0.cut (grid0.coords t) (X0 m c t)) = win0_0.fill (grid0.coords t) d (blk0 m c t) := fun d => by
    unfold X0; rw [Window.cut_fill]
  simp only [before_0, before_1, hcut]
  by_cases h : t.val % 49 = 0
  · have hc : isFirst (grid0.coords t) := (isFirst_iff t).mpr h
    simp only [before_2_first m c t h]
    iintro ⟨HΦ, Ho, ⟨%d0, H0⟩, ⟨%d1, H1⟩, ⟨%d2, H2⟩⟩
    iapply ((runFirst c (grid0.coords t) (ms0 t) (hs0 t) (ms1 t) (hs1 t) (ms2 t) (hs2 t) hc (win0_0.fill (grid0.coords t) d0 (blk0 m c t)) (blk1 m c t)).2 Set.univ _)
    isplitl [H0]; · iexact H0
    isplitl [H1]; · iexact H1
    isplitl [H2]; · iexists _; iexact H2
    iintro ⟨H0, H1, ⟨%f, H2⟩⟩
    isplitl [HΦ]; · iexact HΦ
    isplitl [Ho]; · iexact Ho
    isplitl [H0]; · iexists d0; iexact H0
    isplitl [H1]; · iexact H1
    rw [acc_first m c t h]; unfold X0
    rw [← pay2_fill t d0 (blk0 m c t), ← leftFirst_eq c (grid0.coords t) (ms0 t) (hs0 t) (ms1 t) (hs1 t) (ms2 t) (hs2 t) hc]
    unfold leftFirst owns
    iexists _; isplitr
    swap; · iexact H2
    ipureintro; exact View.read_writes_of_cover _ _ _ _ _ (cover_first c (grid0.coords t) (ms0 t) (hs0 t) (ms1 t) (hs1 t) (ms2 t) (hs2 t) hc _ _)
  · have hc : ¬isFirst (grid0.coords t) := fun hh => h ((isFirst_iff t).mp hh)
    simp only [before_2_next m c t h]
    iintro ⟨HΦ, Ho, ⟨%d0, H0⟩, ⟨%d1, H1⟩, ⟨%d2, H2⟩⟩
    iapply ((runNext c (grid0.coords t) (ms0 t) (hs0 t) (ms1 t) (hs1 t) (ms2 t) (hs2 t) hc (win0_0.fill (grid0.coords t) d0 (blk0 m c t)) (blk1 m c t) (acc m c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%f, H2⟩⟩
    isplitl [HΦ]; · iexact HΦ
    isplitl [Ho]; · iexact Ho
    isplitl [H0]; · iexists d0; iexact H0
    isplitl [H1]; · iexact H1
    rw [acc_next m c t h]; unfold X0
    rw [← pay2_fill t d0 (blk0 m c t), ← leftNext_eq c (grid0.coords t) (ms0 t) (hs0 t) (ms1 t) (hs1 t) (ms2 t) (hs2 t) hc]
    unfold leftNext owns
    iexists _; isplitr
    swap; · iexact H2
    ipureintro; exact View.read_writes_of_cover _ _ _ _ _ (cover_next c (grid0.coords t) (ms0 t) (hs0 t) (ms1 t) (hs1 t) (ms2 t) (hs2 t) hc _ _ _)

/-- The same at every point, in the form the launch theorem asks for. -/
theorem body_obligation (c : Dev nD) : BodyObligationLoose (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of the program ends, with every staged array at
    what the per-point description computes and every other buffer as the last host lines leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Read at the argument arrays, the run's conclusion says they end as they began. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 0).trans ((((dats m) 0 c).arrAt_in 0 rfl _).trans ((A_eq m c 0).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c)⟩

/-- The program runs to its end, faults nowhere, and leaves its nine argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.KI.BlockReads.lean ====
/- Where a window's block sits in its array: at grid point `t` (row block `t / 49`, column block `t % 49`) an element
   of the block read through the block's view is the array's element at the block's offset plus the element's own
   coordinate, on each axis; and which rows of the result array the result window's block covers. -/
import proofs.«162163_j6107443495191_2_alg».proof.Proof.Gen.KernelIdeal.Launch
import proofs.«162163_j6107443495191_2_alg».proof.Proof.Gen.KernelIdeal.Points
import Idealize.ShloMosaic.Lib.Pipeline.Value

noncomputable section

namespace Cert.KernelIdeal.Hand

open Cert.KernelIdeal Cert.KernelIdeal.Gen Idealize.ShloMosaic

variable {F : FTy → Type} [FloatOps F]

/-- The grid's first coordinate at point `t` is the row block `t / 49`. -/
theorem coords_0 : ∀ t : Fin cfg0.N, (grid0.coords t 0).val = t.val / 49 :=
  (by decide +kernel : ∀ t : Fin grid0.N, (grid0.coords t 0).val = t.val / 49)

/-- The grid's second coordinate at point `t` is the column block `t % 49`. -/
theorem coords_1 : ∀ t : Fin cfg0.N, (grid0.coords t 1).val = t.val % 49 :=
  (by decide +kernel : ∀ t : Fin grid0.N, (grid0.coords t 1).val = t.val % 49)

/-- The three windows' block indices at point `t`. -/
theorem index_facts : ∀ t : Fin cfg0.N,
    win0_0.index t (0 : Fin 2) = t.val / 49 ∧ win0_0.index t (1 : Fin 2) = t.val % 49
    ∧ win0_1.index t (0 : Fin 2) = t.val % 49 ∧ win0_1.index t (1 : Fin 2) = 0
    ∧ win0_2.index t (0 : Fin 2) = t.val / 49 ∧ win0_2.index t (1 : Fin 2) = 0 :=
  (by decide +kernel : ∀ t : Fin grid0.N, _)

/-- The columns the first window's transfer moves at point `t`: the block's 1024, cut at the array's 50000 columns. -/
theorem xcols : ∀ t : Fin cfg0.N, win0_0.xsize (grid0.coords t) (1 : Fin 2) = min 1024 (50000 - 1024 * (t.val % 49)) :=
  (by decide +kernel : ∀ t : Fin grid0.N, _)

/-- The rows it moves: all 1000. -/
theorem xrows : ∀ t : Fin cfg0.N, win0_0.xsize (grid0.coords t) (0 : Fin 2) = 1000 :=
  (by decide +kernel : ∀ t : Fin grid0.N, _)

/-- The first window's block read through its view: the array at (1000·(t/49) + row, 1024·(t%49) + column). -/
theorem read_blk0 (A : S2000x50000.Idx → Elt F .i32) (t : Fin cfg0.N) (y : (win0_0.xblock (grid0.coords t)).Idx) (i : S2000x50000.Idx)
    (h0 : (i 0).val = 1000 * (t.val / 49) + (y 0).val) (h1 : (i 1).val = 1024 * (t.val % 49) + (y 1).val) :
    (win0_0.blk t).view.read (Elt F) A y = A i := by
  obtain ⟨e0, e1, -, -, -, -⟩ := index_facts t
  show A ((win0_0.blk t).view.emb y) = A i
  congr 1
  funext a; apply Fin.ext
  match a with
  | ⟨0, _⟩ => show win0_0.index t (0 : Fin 2) * 1000 + 1 * (y 0).val = (i 0).val; rw [e0, h0]; omega
  | ⟨1, _⟩ => show win0_0.index t (1 : Fin 2) * 1024 + 1 * (y 1).val = (i 1).val; rw [e1, h1]; omega

/-- The second window's block read through its view: the array at (1024·(t%49) + row, column). -/
theorem read_blk1 (A : S50176x37.Idx → Elt F .bf16) (t : Fin cfg0.N) (y : (win0_1.xblock (grid0.coords t)).Idx) (i : S50176x37.Idx)
    (h0 : (i 0).val = 1024 * (t.val % 49) + (y 0).val) (h1 : (i 1).val = (y 1).val) :
    (win0_1.blk t).view.read (Elt F) A y = A i := by
  obtain ⟨-, -, e0, e1, -, -⟩ := index_facts t
  show A ((win0_1.blk t).view.emb y) = A i
  congr 1
  funext a; apply Fin.ext
  match a with
  | ⟨0, _⟩ => show win0_1.index t (0 : Fin 2) * 1024 + 1 * (y 0).val = (i 0).val; rw [e0, h0]; omega
  | ⟨1, _⟩ => show win0_1.index t (1 : Fin 2) * 37 + 1 * (y 1).val = (i 1).val; rw [e1, h1]; omega

/-- The result window's block read through its view: the array at (1000·(t/49) + row, column). -/
theorem read_blk2 (G : S2000x37.Idx → Elt F .f32) (t : Fin cfg0.N) (y : (win0_2.xblock (grid0.coords t)).Idx) (i : S2000x37.Idx)
    (h0 : (i 0).val = 1000 * (t.val / 49) + (y 0).val) (h1 : (i 1).val = (y 1).val) :
    (win0_2.blk t).view.read (Elt F) G y = G i := by
  obtain ⟨-, -, -, -, e0, e1⟩ := index_facts t
  show G ((win0_2.blk t).view.emb y) = G i
  congr 1
  funext a; apply Fin.ext
  match a with
  | ⟨0, _⟩ => show win0_2.index t (0 : Fin 2) * 1000 + 1 * (y 0).val = (i 0).val; rw [e0, h0]; omega
  | ⟨1, _⟩ => show win0_2.index t (1 : Fin 2) * 37 + 1 * (y 1).val = (i 1).val; rw [e1, h1]; omega

/-- An index of the result array is in point `t`'s block iff its row is among the block's 1000 rows (every
    column is: the block spans the 37 columns). -/
theorem mem_blk2 (t : Fin cfg0.N) (i : S2000x37.Idx) :
    i ∈ (win0_2.blk t).view.set ↔ 1000 * (t.val / 49) ≤ (i 0).val ∧ (i 0).val < 1000 * (t.val / 49) + 1000 := by
  obtain ⟨-, -, -, -, e0, e1⟩ := index_facts t
  have h1 : (i 1).val < 37 := (i 1).isLt
  show i ∈ ((View.whole main_v59).slice (win0_2.rect t)).set ↔ _
  rw [View.set_slice_whole, Rect.mem_set_unit]
  constructor
  · intro h
    have b0 : win0_2.index t (0 : Fin 2) * 1000 ≤ (i 0).val ∧ (i 0).val < win0_2.index t (0 : Fin 2) * 1000 + 1000 := h 0
    rw [e0] at b0; omega
  · intro h a
    match a with
    | ⟨0, _⟩ => show win0_2.index t (0 : Fin 2) * 1000 ≤ (i 0).val ∧ (i 0).val < win0_2.index t (0 : Fin 2) * 1000 + 1000; rw [e0]; omega
    | ⟨1, _⟩ => show win0_2.index t (1 : Fin 2) * 37 ≤ (i 1).val ∧ (i 1).val < win0_2.index t (1 : Fin 2) * 37 + 37; rw [e1]; omega

end Cert.KernelIdeal.Hand

end
-- ==== Proof.PayIdeal.lean ====
/- The kernel body's arithmetic read at an index, at the ideal values (a float is an extended real, a change of
   format is the identity, a matrix product into the zero accumulator is the plain sum): the stored block is the
   carried block plus, over the 1024 columns of the staged block, the 0/1 weight of the staged word times the
   table's element. -/
import proofs.«162163_j6107443495191_2_alg».proof.Proof.Gen.KernelIdeal.Skeleton
import Idealize.ShloMosaic.PureOps.Ideal.Laws
import Idealize.ShloMosaic.Lib.ValueIdx
import Idealize.ShloMosaic.Lib.WordArith
import Idealize.ShloMosaic.Lib.Pipeline.Value

set_option synthInstance.maxSize 4096

noncomputable section

namespace Cert.KernelIdeal.Hand

open Cert.KernelIdeal Cert.KernelIdeal.Gen Idealize.ShloMosaic

/-- the 0/1 weight of a staged word at column j of column block k -/
def wgt (k : ℕ) (w : BitVec 32) (j : ℕ) : EReal := if w = 1#32 ∧ 1024 * k + j < 50000 then 1 else 0

/-- The 32-bit word `k·1024 + j` for a block number `k < 49` and a column `j < 1024` is the word of the
    natural number `1024·k + j` (no wrap: the number is below `2³¹`), and its SIGNED comparison with the
    word `50000` is the comparison of the natural numbers. -/
private theorem colTest (k j : ℕ) (hk : k < 49) (hj : j < 1024) :
    IntOp.cmpi .slt (IntOp.addi (Scalar.muli (BitVec.ofNat 32 k) 1024#32) (BitVec.ofNat 32 (0 * 1024 + j))) 50000#32
      = BitVec.ofBool (decide (1024 * k + j < 50000)) := by
  have hx : IntOp.addi (Scalar.muli (BitVec.ofNat 32 k) 1024#32) (BitVec.ofNat 32 (0 * 1024 + j))
      = BitVec.ofNat 32 (1024 * k + j) := by
    show BitVec.ofNat 32 k * BitVec.ofNat 32 1024 + BitVec.ofNat 32 (0 * 1024 + j) = BitVec.ofNat 32 (1024 * k + j)
    rw [← BitVec.ofNat_mul, ← BitVec.ofNat_add]
    congr 1
    omega
  rw [hx]
  show BitVec.ofBool ((BitVec.ofNat 32 (1024 * k + j)).slt (BitVec.ofNat 32 50000)) = _
  congr 1
  rw [BitVec.slt, WordArith.toInt_ofNat_small _ (by omega), WordArith.toInt_ofNat_small _ (by omega)]
  exact decide_eq_decide.mpr (by omega)

/-- The mask `(word = 1) AND (column test)` of the kernel body, as a vector. -/
private def mask (i : grid0.Coords) (v9 : Vec Ideal S1000x1024 .i32) : IVec S1000x1024 1 :=
  andi (cmpi .eq v9 (broadcast S1000x1024 1#32))
    (cmpi .slt (addi (broadcast S1000x1024 (Scalar.muli (BitVec.ofNat 32 (i 1).val) 1024#32))
        (iota .tc S1000x1024 32 [1] iota_S1000x1024_d1_w32)) (broadcast S1000x1024 50000#32))

/-- The mask at an index: one bit, set exactly when the word is 1 and the column is inside the array. -/
private theorem mask_apply (i : grid0.Coords) (v9 : Vec Ideal S1000x1024 .i32) (j : S1000x1024.Idx) :
    mask i v9 j = BitVec.ofBool (decide (v9 j = 1#32 ∧ 1024 * (i 1).val + (j 1).val < 50000)) := by
  have hk : (i 1).val < 49 := (i 1).isLt
  have hj : (j 1).val < 1024 := (j 1).isLt
  have h0 : mask i v9 j = IntOp.andi (IntOp.cmpi .eq (v9 j) 1#32)
      (IntOp.cmpi .slt (IntOp.addi (Scalar.muli (BitVec.ofNat 32 (i 1).val) 1024#32) (BitVec.ofNat 32 (0 * 1024 + (j 1).val))) 50000#32) := rfl
  rw [h0, colTest _ _ hk hj, show IntOp.cmpi .eq (v9 j) 1#32 = BitVec.ofBool (v9 j == 1#32) from rfl, WordArith.andi_ofBool]
  congr 1
  by_cases hw : v9 j = 1#32 <;> by_cases hc : 1024 * (i 1).val + (j 1).val < 50000 <;> simp [hw, hc]

/-- A one-bit word, widened to 32 bits and read as a signed integer, is 1 or 0 as an extended real. -/
private theorem bit_val (b : Bool) :
    (FloatOps.sitofp (F := Ideal) .f32 ((BitVec.ofBool b).setWidth 32) : EReal) = if b then 1 else 0 := by
  cases b
  · show (((BitVec.setWidth 32 (BitVec.ofBool false)).toInt : ℝ) : EReal) = 0
    rw [show (BitVec.setWidth 32 (BitVec.ofBool false)).toInt = 0 from by decide]
    simp
  · show (((BitVec.setWidth 32 (BitVec.ofBool true)).toInt : ℝ) : EReal) = 1
    rw [show (BitVec.setWidth 32 (BitVec.ofBool true)).toInt = 1 from by decide]
    simp

/-- The kernel body's arithmetic reads the staged words only through the mask. -/
private theorem pay2_eq (i : grid0.Coords) (v9 : Vec Ideal S1000x1024 .i32) (v16 : Vec Ideal S1000x37 .f32) (v18 : Vec Ideal S1024x37 .bf16) :
    k0_pay2 (F := Ideal) i v9 v16 v18 =
      addf (F := Ideal) (φ := .f32) (shapeCast S1000x37 v16 shapeCasts_S1000x37_S1000x37 : FVec Ideal S1000x37 .f32)
        (matmul (F := Ideal) (φ₁ := .bf16) (φ₂ := .bf16) dot_S1000x1024_S1024x37_S1000x37_1_0_0_1_n_n none
          (truncf (F := Ideal) (φ := .f32) .bf16 (sitofp (F := Ideal) .f32 (extui 32 (mask i v9) natLt_1_32)) bitsLt_bf16_f32)
          (shapeCast S1024x37 v18 shapeCasts_S1024x37_S1024x37 : FVec Ideal S1024x37 .bf16)
          (constant (F := Ideal) S1000x37 .f32 0x00000000#32)) := rfl

private theorem lhs0 (y : S1000x37.Idx) (c : dot_S1000x1024_S1024x37_S1000x37_1_0_0_1_n_n.contr.Idx) :
    (dot_S1000x1024_S1024x37_S1000x37_1_0_0_1_n_n.lhsIdx y c 0).val = (y 0).val := by
  unfold DotDims.lhsIdx
  rw [dif_neg (show ¬(0 : Fin S1000x1024.rank) ∈ dot_S1000x1024_S1024x37_S1000x37_1_0_0_1_n_n.lhsBatch by decide),
    dif_pos (show (0 : Fin S1000x1024.rank) ∈ dot_S1000x1024_S1024x37_S1000x37_1_0_0_1_n_n.lhsNonContracting by decide)]
  rfl

private theorem lhs1 (y : S1000x37.Idx) (c : dot_S1000x1024_S1024x37_S1000x37_1_0_0_1_n_n.contr.Idx) :
    (dot_S1000x1024_S1024x37_S1000x37_1_0_0_1_n_n.lhsIdx y c 1).val = (c ⟨0, by decide⟩).val :=
  dot_S1000x1024_S1024x37_S1000x37_1_0_0_1_n_n.lhsIdx_val_of_single rfl y c

private theorem rhs0 (y : S1000x37.Idx) (c : dot_S1000x1024_S1024x37_S1000x37_1_0_0_1_n_n.contr.Idx) :
    (dot_S1000x1024_S1024x37_S1000x37_1_0_0_1_n_n.rhsIdx y c 0).val = (c ⟨0, by decide⟩).val :=
  dot_S1000x1024_S1024x37_S1000x37_1_0_0_1_n_n.rhsIdx_val_of_single rfl y c

private theorem rhs1 (y : S1000x37.Idx) (c : dot_S1000x1024_S1024x37_S1000x37_1_0_0_1_n_n.contr.Idx) :
    (dot_S1000x1024_S1024x37_S1000x37_1_0_0_1_n_n.rhsIdx y c 1).val = (y 1).val := by
  unfold DotDims.rhsIdx
  rw [dif_neg (show ¬(1 : Fin S1024x37.rank) ∈ dot_S1000x1024_S1024x37_S1000x37_1_0_0_1_n_n.rhsBatch by decide),
    dif_pos (show (1 : Fin S1024x37.rank) ∈ dot_S1000x1024_S1024x37_S1000x37_1_0_0_1_n_n.rhsNonContracting by decide)]
  rfl

/-- The stored block at row `p`, column `q`: the carried element plus the weighted sum of the table's column. -/
theorem pay2_apply (i : grid0.Coords) (v9 : Vec Ideal S1000x1024 .i32) (v16 : Vec Ideal S1000x37 .f32) (v18 : Vec Ideal S1024x37 .bf16) (p : Fin 1000) (q : Fin 37) :
    k0_pay2 (F := Ideal) i v9 v16 v18 (ValueIdx.ix2 p q) = v16 (ValueIdx.ix2 p q) + ∑ j : Fin 1024, wgt (i 1).val (v9 (ValueIdx.ix2 p j)) j.val * v18 (ValueIdx.ix2 j q) := by
  rw [pay2_eq, ValueIdx.addf_apply, shapeCast_self, shapeCast_self]
  congr 1
  simp only [matmul]
  rw [Ideal.matmul_constant_zero_apply,
    ← Equiv.sum_comp (ValueIdx.contrEquiv1 dot_S1000x1024_S1024x37_S1000x37_1_0_0_1_n_n 1024 rfl rfl).symm]
  refine Finset.sum_congr rfl fun k _ => ?_
  have hk := ValueIdx.contrEquiv1_symm_val dot_S1000x1024_S1024x37_S1000x37_1_0_0_1_n_n 1024 rfl rfl k
  have el : dot_S1000x1024_S1024x37_S1000x37_1_0_0_1_n_n.lhsIdx (ValueIdx.ix2 p q)
      ((ValueIdx.contrEquiv1 dot_S1000x1024_S1024x37_S1000x37_1_0_0_1_n_n 1024 rfl rfl).symm k) = ValueIdx.ix2 p k :=
    funext fun a => Fin.ext (by
      match a with
      | ⟨0, _⟩ => exact lhs0 _ _
      | ⟨1, _⟩ => exact (lhs1 _ _).trans hk)
  have er : dot_S1000x1024_S1024x37_S1000x37_1_0_0_1_n_n.rhsIdx (ValueIdx.ix2 p q)
      ((ValueIdx.contrEquiv1 dot_S1000x1024_S1024x37_S1000x37_1_0_0_1_n_n 1024 rfl rfl).symm k) = ValueIdx.ix2 k q :=
    funext fun a => Fin.ext (by
      match a with
      | ⟨0, _⟩ => exact (rhs0 _ _).trans hk
      | ⟨1, _⟩ => exact rhs1 _ _)
  rw [el, er]
  congr 1
  show FloatOps.sitofp (F := Ideal) .f32 ((mask i v9 (ValueIdx.ix2 p k)).setWidth 32) = _
  rw [mask_apply, bit_val]
  unfold wgt
  by_cases h : v9 (ValueIdx.ix2 p k) = 1#32 ∧ 1024 * (i 1).val + k.val < 50000
  · rw [if_pos h, decide_eq_true h]; rfl
  · rw [if_neg h, decide_eq_false h]; rfl

/-- The block stored at the first column block is the zero block. -/
theorem pay1_apply (y : S1000x37.Idx) : k0_pay1 (F := Ideal) y = 0 := by
  show Ideal.ofBits .f32 0x00000000#32 = 0
  exact Ideal.ofBits_zero_f32

end Cert.KernelIdeal.Hand

end
-- ==== Proof.SumBlocks.lean ====
/- Forty-nine blocks of 1024 consecutive natural numbers are the natural numbers below 50176; a summand that
   vanishes from 50000 on sums over them to its sum over the numbers below 50000. -/
import Mathlib.Data.EReal.Basic
import Mathlib.Algebra.BigOperators.Fin

namespace Cert.Hand.Sums

/-- `K` consecutive blocks of `B` consecutive numbers are the numbers below `B * K`. -/
theorem blocks_range {M : Type*} [AddCommMonoid M] (B : ℕ) (g : ℕ → M) (K : ℕ) :
    ∑ s ∈ Finset.range K, ∑ j ∈ Finset.range B, g (B * s + j) = ∑ u ∈ Finset.range (B * K), g u := by
  induction K with
  | zero => simp
  | succ K ih => rw [Finset.sum_range_succ, ih, Nat.mul_succ, Finset.sum_range_add]

/-- The same for any commutative additive monoid: blocks of 1024, 49 of them, a summand zero from 50000 on. -/
theorem blocks_sum_of_monoid {M : Type*} [AddCommMonoid M] (g : ℕ → M) (hz : ∀ u, 50000 ≤ u → g u = 0) :
    ∑ s ∈ Finset.range 49, ∑ j : Fin 1024, g (1024 * s + j.val) = ∑ u : Fin 50000, g u.val := by
  have h1 : ∀ s, ∑ j : Fin 1024, g (1024 * s + j.val) = ∑ j ∈ Finset.range 1024, g (1024 * s + j) :=
    fun s => (Finset.sum_range (fun j => g (1024 * s + j))).symm
  simp only [h1]
  rw [blocks_range 1024 g 49, ← Finset.sum_range (fun u => g u)]
  show ∑ u ∈ Finset.range (50000 + 176), g u = _
  rw [Finset.sum_range_add, Finset.sum_eq_zero (s := Finset.range 176) (fun x _ => hz _ (Nat.le_add_right _ _)),
    add_zero]

theorem blocks_sum (g : ℕ → EReal) (hz : ∀ u, 50000 ≤ u → g u = 0) :
    ∑ s ∈ Finset.range 49, ∑ j : Fin 1024, g (1024 * s + j.val) = ∑ u : Fin 50000, g u.val :=
  blocks_sum_of_monoid g hz

end Cert.Hand.Sums
-- ==== Proof.AccValue.lean ====
/- What the accumulated result array holds, at the ideal values: the accumulator block after a row block's last
   point, and so each element of the result array after the launch, is the sum over the 50000 users of the
   membership indicator times the extended table's element (the table's element in its first 36 columns, one in
   the 37th). The staged table is taken as any array `E` that the launch finds staged and that reads, at an index,
   as that extended table with zero rows from 50000 on. -/
import proofs.«162163_j6107443495191_2_alg».proof.Proof.KI.Dats
import proofs.«162163_j6107443495191_2_alg».proof.Proof.KI.BlockReads
import proofs.«162163_j6107443495191_2_alg».proof.Proof.PayIdeal
import proofs.«162163_j6107443495191_2_alg».proof.Proof.SumBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The fetched blocks at an index (any float values) -/

section AnyValues

variable {F : FTy → Type} [FloatOps F]
variable (m : (ℓ : Loc nD τ sig) → Buf (Elt F) ℓ)

/-- The zero-filled membership block at a column inside the array is the membership array's word there. -/
theorem X0_apply (c : Dev nD) (t : Fin cfg0.N) (p : Fin 1000) (j : Fin 1024) (r : Fin 2000) (u : Fin 50000)
    (hr : r.val = 1000 * (t.val / 49) + p.val) (hu : u.val = 1024 * (t.val % 49) + j.val) :
    X0 m c t (ix2 p j) = (m ((c : Thread nD τ).loc main_arg2) : S2000x50000.Idx → BitVec 32) (ix2 r u) := by
  have hm : win0_0.moved (grid0.coords t) (ix2 p j) = true := (win0_0.moved_iff _ _).mpr fun a => by
    match a with
    | ⟨0, _⟩ => rw [show win0_0.xsize (grid0.coords t) ⟨0, _⟩ = 1000 from xrows t]; exact p.isLt
    | ⟨1, _⟩ =>
      rw [show win0_0.xsize (grid0.coords t) ⟨1, _⟩ = _ from xcols t]
      show j.val < _
      have := j.isLt; have := u.isLt; omega
  unfold X0 Window.fill
  rw [dif_pos hm]
  unfold blk0
  exact (read_blk0 (V m c main_arg2) t _ (ix2 r u) hr hu).trans (congrFun (V_main_arg2 m c) _)

/-- The table block at an index is the staged table there. -/
theorem blk1_apply (c : Dev nD) (t : Fin cfg0.N) (j : Fin 1024) (q : Fin 37) (u : Fin 50176)
    (hu : u.val = 1024 * (t.val % 49) + j.val) :
    blk1 m c t (ix2 j q) = (V m c main_v58 : S50176x37.Idx → Elt F .bf16) (ix2 u q) := by
  unfold blk1
  exact read_blk1 (V m c main_v58) t _ (ix2 u q) hu rfl

end AnyValues

/-! ## The accumulator as a sum, at the ideal values -/

variable (m : (ℓ : Loc nD τ sig) → Buf (Elt Ideal) ℓ) (c : Dev nD)

/-- What point `n` adds to the accumulator at row `p`, column `q` (zero past the grid, where it is never read). -/
def addendPQ (n : ℕ) (p : Fin 1000) (q : Fin 37) : EReal :=
  if h : n < cfg0.N then
    ∑ j : Fin 1024, wgt (n % 49) (X0 m c ⟨n, h⟩ (ix2 p j)) j.val * blk1 m c ⟨n, h⟩ (ix2 j q)
  else 0

/-- The same as a function of the block's index. -/
def addend (n : ℕ) (i : S1000x37.Idx) : EReal := addendPQ m c n (i 0) (i 1)

/-- The body's sum at point `n` over a carried block `prev` adds the point's addend to it. -/
theorem pay2_addend (n : ℕ) (h : n < cfg0.N) (prev : Vec Ideal S1000x37 .f32) (i : S1000x37.Idx) :
    k0_pay2 (F := Ideal) (grid0.coords ⟨n, h⟩) (X0 m c ⟨n, h⟩) prev (blk1 m c ⟨n, h⟩) i = prev i + addend m c n i := by
  obtain ⟨p, q, rfl⟩ : ∃ (p : Fin 1000) (q : Fin 37), i = ix2 p q := ⟨i 0, i 1, eq_ix2 i⟩
  refine (pay2_apply (grid0.coords ⟨n, h⟩) (X0 m c ⟨n, h⟩) prev (blk1 m c ⟨n, h⟩) p q).trans ?_
  have e : (grid0.coords ⟨n, h⟩ 1).val = n % 49 := coords_1 ⟨n, h⟩
  show prev (ix2 p q) + _ = prev (ix2 p q) + addendPQ m c n p q
  unfold addendPQ
  rw [dif_pos h, e]

/-- The accumulator after point `t`: the addends of the row block's points up to `t`, summed. -/
theorem acc_eq_sum (t : Fin cfg0.N) (i : S1000x37.Idx) :
    acc (F := Ideal) m c t.val t.isLt i
      = 0 + ∑ s ∈ Finset.range (t.val % 49 + 1), addend m c (49 * (t.val / 49) + s) i := by
  have h' : 49 * (t.val / 49) + t.val % 49 < cfg0.N := by rw [Nat.div_add_mod]; exact t.isLt
  rw [Pipeline.eq_accAt_of_mod (acc (F := Ideal) m c) 49
    (fun n h => k0_pay2 (F := Ideal) (grid0.coords ⟨n, h⟩) (X0 m c ⟨n, h⟩) (k0_pay1 (F := Ideal)) (blk1 m c ⟨n, h⟩))
    (fun n h prev => k0_pay2 (F := Ideal) (grid0.coords ⟨n, h⟩) (X0 m c ⟨n, h⟩) prev (blk1 m c ⟨n, h⟩))
    (fun n h hn => acc_first m c ⟨n, h⟩ hn)
    (fun n h hn => acc_next m c ⟨n + 1, h⟩ hn)
    (by decide) t.val t.isLt h']
  exact Pipeline.accAt_add_apply _ _ (fun _ => (0 : EReal)) (addend m c) (49 * (t.val / 49)) 48
    (fun h i => (pay2_addend m c _ h _ i).trans (congrArg (· + addend m c _ i) (pay1_apply i)))
    (fun n h prev i _ _ => pay2_addend m c n h prev i)
    (t.val % 49) (by omega) h' i

variable (U : FVec Ideal S50000x36 .f32) (E : FVec Ideal S50176x37 .bf16)

/-- The extended table: the table's element in the first 36 columns, one in the 37th. -/
def ext (u : Fin 50000) (q : Fin 37) : EReal := if hq : q.val < 36 then U (ix2 u ⟨q.val, hq⟩) else 1

/-- User `u`'s term of row `r`, column `q`: the membership indicator times the extended table; zero from 50000 on. -/
def term (r : Fin 2000) (q : Fin 37) (u : ℕ) : EReal :=
  if hu : u < 50000 then
    (if (m ((c : Thread nD τ).loc main_arg2) : S2000x50000.Idx → BitVec 32) (ix2 r ⟨u, hu⟩) = 1#32 then (1 : EReal) else 0) * ext U ⟨u, hu⟩ q
  else 0

/-- Inside the array the body's weight of a word is the membership indicator. -/
theorem wgt_eq_ind (s : ℕ) (w : BitVec 32) (j : ℕ) (h : 1024 * s + j < 50000) :
    wgt s w j = if w = 1#32 then (1 : EReal) else 0 := by
  unfold wgt
  by_cases hw : w = 1#32
  · rw [if_pos ⟨hw, h⟩, if_pos hw]
  · rw [if_neg (fun h' => hw h'.1), if_neg hw]

/-- The addend of the point at row block `R`, column block `s`: the terms of the block's 1024 users. -/
theorem addend_eq (hE : (V (F := Ideal) m c main_v58) = E)
    (hEa : ∀ (u : Fin 50176) (q : Fin 37), E (ix2 u q) = if hu : u.val < 50000 then (if hq : q.val < 36 then U (ix2 ⟨u.val, hu⟩ ⟨q.val, hq⟩) else 1) else 0) (R s : ℕ) (hR : R < 2) (hs : s < 49)
    (p : Fin 1000) (q : Fin 37) (r : Fin 2000) (hr : r.val = 1000 * R + p.val) :
    addend m c (49 * R + s) (ix2 p q) = ∑ j : Fin 1024, term m c U r q (1024 * s + j.val) := by
  have hN : cfg0.N = 98 := N_0
  have h : 49 * R + s < cfg0.N := by rw [hN]; omega
  have e49 : (49 * R + s) % 49 = s := by omega
  have d49 : (49 * R + s) / 49 = R := by omega
  show addendPQ m c (49 * R + s) p q = _
  unfold addendPQ
  rw [dif_pos h, e49]
  refine Finset.sum_congr rfl fun j _ => ?_
  have hj := j.isLt
  by_cases hu : 1024 * s + j.val < 50000
  · have hx := X0_apply m c ⟨49 * R + s, h⟩ p j r ⟨1024 * s + j.val, hu⟩
      (by show r.val = 1000 * ((49 * R + s) / 49) + p.val; rw [d49]; exact hr)
      (by show 1024 * s + j.val = 1024 * ((49 * R + s) % 49) + j.val; rw [e49])
    have hb := blk1_apply m c ⟨49 * R + s, h⟩ j q ⟨1024 * s + j.val, by omega⟩
      (by show 1024 * s + j.val = 1024 * ((49 * R + s) % 49) + j.val; rw [e49])
    rw [hx, hb, hE, hEa, dif_pos hu, wgt_eq_ind _ _ _ hu]
    unfold term
    rw [dif_pos hu]
    rfl
  · unfold wgt term
    rw [if_neg (fun h' => hu h'.2), dif_neg hu, zero_mul]

/-- THE ACCUMULATOR AFTER A ROW BLOCK'S LAST POINT: the sum over all users. -/
theorem acc_last (hE : (V (F := Ideal) m c main_v58) = E)
    (hEa : ∀ (u : Fin 50176) (q : Fin 37), E (ix2 u q) = if hu : u.val < 50000 then (if hq : q.val < 36 then U (ix2 ⟨u.val, hu⟩ ⟨q.val, hq⟩) else 1) else 0)
    (t : Fin cfg0.N) (ht : t.val % 49 = 48) (p : Fin 1000) (q : Fin 37) (r : Fin 2000)
    (hr : r.val = 1000 * (t.val / 49) + p.val) :
    acc (F := Ideal) m c t.val t.isLt (ix2 p q)
      = ∑ u : Fin 50000, (if (m ((c : Thread nD τ).loc main_arg2) : S2000x50000.Idx → BitVec 32) (ix2 r u) = 1#32 then (1 : EReal) else 0)
          * (if hq : q.val < 36 then U (ix2 u ⟨q.val, hq⟩) else 1) := by
  have hN : cfg0.N = 98 := N_0
  have ht98 : t.val < 98 := hN ▸ t.isLt
  rw [acc_eq_sum, ht, zero_add]
  have h1 : ∀ s ∈ Finset.range (48 + 1), addend m c (49 * (t.val / 49) + s) (ix2 p q)
      = ∑ j : Fin 1024, term m c U r q (1024 * s + j.val) := fun s hs =>
    addend_eq m c U E hE hEa (t.val / 49) s (by omega) (by have := Finset.mem_range.mp hs; omega) p q r hr
  rw [Finset.sum_congr rfl h1]
  rw [Cert.Hand.Sums.blocks_sum (term m c U r q) (fun u hu => by unfold term; rw [dif_neg (by omega)])]
  refine Finset.sum_congr rfl fun u _ => ?_
  unfold term
  rw [dif_pos u.isLt]
  rfl

/-! ## The result array after the launch -/

/-- The sum over all users at row `r`, column `q`. -/
def Gpq (r : Fin 2000) (q : Fin 37) : EReal :=
  ∑ u : Fin 50000, (if (m ((c : Thread nD τ).loc main_arg2) : S2000x50000.Idx → BitVec 32) (ix2 r u) = 1#32 then (1 : EReal) else 0)
    * (if hq : q.val < 36 then U (ix2 u ⟨q.val, hq⟩) else 1)

/-- The same as a function of the array's index. -/
def Gsum (i : S2000x37.Idx) : EReal := Gpq m c U (i 0) (i 1)

/-- What a row block's last point writes back is its block of the sums. -/
theorem flushed_eq (hE : (V (F := Ideal) m c main_v58) = E)
    (hEa : ∀ (u : Fin 50176) (q : Fin 37), E (ix2 u q) = if hu : u.val < 50000 then (if hq : q.val < 36 then U (ix2 ⟨u.val, hu⟩ ⟨q.val, hq⟩) else 1) else 0) (t : Fin cfg0.N)
    (hf : (cfg0.win 2).flush t = true) :
    (dats (F := Ideal) m 0 c).flushed 2 t = ((cfg0.win 2).blk t).view.read (Elt Ideal) (Gsum m c U) := by
  have ht : t.val % 49 = 48 := (flush0_2 t).mp hf
  have hN : cfg0.N = 98 := N_0
  have ht98 : t.val < 98 := hN ▸ t.isLt
  show (cfg0.win 2).cut (grid0.coords t) ((dats (F := Ideal) m 0 c).after 2 t) = _
  rw [after_2]
  funext y
  have hp : (y 0).val < 1000 := (y 0).isLt
  have hq : (y 1).val < 37 := (y 1).isLt
  have hr : 1000 * (t.val / 49) + (y 0).val < 2000 := by omega
  have ex : win0_2.xinj (grid0.coords t) y = ix2 (⟨(y 0).val, hp⟩ : Fin 1000) (⟨(y 1).val, hq⟩ : Fin 37) :=
    funext fun a => Fin.ext (by match a with | ⟨0, _⟩ => rfl | ⟨1, _⟩ => rfl)
  show acc (F := Ideal) m c t.val t.isLt (win0_2.xinj (grid0.coords t) y) = _
  rw [ex, acc_last m c U E hE hEa t ht ⟨(y 0).val, hp⟩ ⟨(y 1).val, hq⟩ ⟨1000 * (t.val / 49) + (y 0).val, hr⟩ rfl]
  exact (read_blk2 (F := Ideal) (Gsum m c U) t y (ix2 (⟨1000 * (t.val / 49) + (y 0).val, hr⟩ : Fin 2000) (⟨(y 1).val, hq⟩ : Fin 37)) rfl rfl).symm

/-- THE RESULT ARRAY AFTER THE LAUNCH: at every index the sum over all users. -/
theorem final_v59 (hE : (V (F := Ideal) m c main_v58) = E)
    (hEa : ∀ (u : Fin 50176) (q : Fin 37), E (ix2 u q) = if hu : u.val < 50000 then (if hq : q.val < 36 then U (ix2 ⟨u.val, hu⟩ ⟨q.val, hq⟩) else 1) else 0) (r : Fin 2000) (q : Fin 37) :
    ((dats (F := Ideal) m 0 c).arrAt 2 cfg0.N : S2000x37.Idx → EReal) (ix2 r q)
      = ∑ u : Fin 50000, (if (m ((c : Thread nD τ).loc main_arg2) : S2000x50000.Idx → BitVec 32) (ix2 r u) = 1#32 then (1 : EReal) else 0)
          * (if hq : q.val < 36 then U (ix2 u ⟨q.val, hq⟩) else 1) := by
  have hN : cfg0.N = 98 := N_0
  have hall : (dats (F := Ideal) m 0 c).arrAt 2 cfg0.N = Gsum m c U :=
    (dats (F := Ideal) m 0 c).arrAt_eq_of_cover 2 (Gsum m c U) (fun t hf => flushed_eq m c U E hE hEa t hf) (fun i => by
      have hi : ((i : S2000x37.Idx) 0).val < 2000 := ((i : S2000x37.Idx) 0).isLt
      have hlt : 49 * (((i : S2000x37.Idx) 0).val / 1000) + 48 < cfg0.N := by rw [hN]; omega
      refine ⟨⟨49 * (((i : S2000x37.Idx) 0).val / 1000) + 48, hlt⟩, (flush0_2 _).mpr (by show (49 * _ + 48) % 49 = 48; omega), ?_⟩
      refine (mem_blk2 _ (i : S2000x37.Idx)).mpr ?_
      show 1000 * ((49 * (((i : S2000x37.Idx) 0).val / 1000) + 48) / 49) ≤ _ ∧ _ < 1000 * ((49 * (((i : S2000x37.Idx) 0).val / 1000) + 48) / 49) + 1000
      omega)
  rw [hall]
  rfl

end Cert.KernelIdeal.Hand

end
-- ==== Proof.HostReads.lean ====
/-
  The host-side operations of the idealized kernel program read at an index, at the ideal instance
  (every float an extended real), and the reference's two sums.

  Before the pallas_call the program appends a column of ones to the gathered table, changes the
  format (the identity on extended reals) and appends 176 rows of zeros: `uext`, read at an index
  by `uext_apply`. After the call the program divides the first 36 columns of the call's result
  by the 37th and joins the quotient to the first argument: `tailK`. When every element of the
  call's result is the sum over the users of the membership indicator times the extended table
  (the hypothesis of `tail_eq_ref`), that is the reference's result: the first 36 columns are the
  reference's product of the mask with the table, and the 37th is the reference's row sum of the mask.
-/
import proofs.«162163_j6107443495191_2_alg».proof.KernelIdeal
import proofs.«162163_j6107443495191_2_alg».proof.Proof.Gen.ReferenceIdeal.Read
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

noncomputable section

open scoped BigOperators

namespace Cert.KernelIdeal.HostReads

open Cert.KernelIdeal Idealize.ShloMosaic Idealize.ShloMosaic.ValueIdx

variable [Cert.KernelIdeal.Facts]
open Cert.KernelIdeal.Facts₀ Cert.KernelIdeal.Facts

/-- What @main's last five lines make of arg0 and the pallas_call's result X: the first 36 columns of X
    divided by its 37th, joined to arg0 on the right. -/
def tailK (x0 : FVec Ideal S2000x16 .f32) (X : FVec Ideal S2000x37 .f32) : FVec Ideal S2000x52 .f32 :=
  concatenate S2000x52 1 [⟨S2000x16, x0⟩, ⟨S2000x36, Host.divf (F := Ideal) (extractStridedSlice S2000x36 ![0, 0] X slices_S2000x37_S2000x36_0_0) (broadcastInDim S2000x36 ![0, 1] bcast_S2000x1_S2000x36_0_1 (extractStridedSlice S2000x1 ![0, 36] X slices_S2000x37_S2000x1_0_36))⟩] concatenates_S2000x16_S2000x36_S2000x52_d1

/-- A staged membership word as an extended real: one when the word is 1, zero otherwise. -/
def ind (w : BitVec 32) : EReal := if w = 1#32 then 1 else 0

/-- The unsigned conversion of the bit "the word equals 1" is the indicator. -/
theorem uitofp_cmpi_eq_one (w : BitVec 32) :
    (FloatOps.uitofp (F := Ideal) .f32 (IntOp.cmpi .eq w 1#32) : EReal) = ind w := by
  unfold ind IntOp.cmpi
  by_cases h : w = 1#32
  · rw [if_pos h]; subst h
    show (((BitVec.ofBool (1#32 == 1#32)).toNat : ℝ) : EReal) = 1
    simp
  · rw [if_neg h]
    show (((BitVec.ofBool (w == 1#32)).toNat : ℝ) : EReal) = 0
    have : (w == 1#32) = false := by simpa using h
    rw [this]
    simp

/-- The reference's mask (the comparison with 1, converted) at an index is the indicator of the word there. -/
theorem mask_apply (x2 : (⟨S2000x50000, .i32⟩ : BufTy).Contents (Elt Ideal)) (r : Fin 2000) (u : Fin 50000) :
    Cert.ReferenceIdeal.Read.val_main_v57 (F := Ideal) x2 (ix2 r u) = ind (x2 (ix2 r u)) := by
  rw [Cert.ReferenceIdeal.Read.val_main_v57_apply, Cert.ReferenceIdeal.Read.val_main_v56_apply,
    Cert.ReferenceIdeal.Read.val_main_v55_apply, Cert.ReferenceIdeal.Read.val_main_c_11_apply]
  exact uitofp_cmpi_eq_one _

/-- The index at which the reference's product reads the mask, by coordinates. -/
theorem lidx_eq (r : Fin 2000) (q : Fin 36) (u : Fin 50000) :
    Cert.ReferenceIdeal.Read.lidx_main_v60 (ix2 r q) u = ix2 r u := by
  funext a; match a with | ⟨0, _⟩ => rfl | ⟨1, _⟩ => rfl

/-- The index at which the reference's product reads the table, by coordinates. -/
theorem ridx_eq (r : Fin 2000) (q : Fin 36) (u : Fin 50000) :
    Cert.ReferenceIdeal.Read.ridx_main_v60 (ix2 r q) u = ix2 u q := by
  funext a; match a with | ⟨0, _⟩ => rfl | ⟨1, _⟩ => rfl

/-- The index at which the reference's row sum reads the mask, through the two broadcasts, by coordinates. -/
theorem sidx_eq (r : Fin 2000) (q : Fin 36) (u : Fin 50000) :
    Cert.ReferenceIdeal.Read.idx_main_v58 (Cert.ReferenceIdeal.Read.idx_main_v59 (Cert.ReferenceIdeal.Read.idx_main_v61 (ix2 r q))) u = ix2 r u := by
  funext a; match a with | ⟨0, _⟩ => rfl | ⟨1, _⟩ => rfl

/-- THE TAIL IS THE REFERENCE: when every element of the pallas_call's result is the sum over the users of the
    membership indicator times the table extended by a column of ones, the program's last five lines give the
    reference's result. The first 36 columns are the reference's product of the mask with the table; the 37th is
    the reference's row sum of the mask (zero plus the sum, the indicator times one). -/
theorem tail_eq_ref (x0 : (⟨S2000x16, .f32⟩ : BufTy).Contents (Elt Ideal)) (x1 : (⟨S50000x6, .i32⟩ : BufTy).Contents (Elt Ideal)) (x2 : (⟨S2000x50000, .i32⟩ : BufTy).Contents (Elt Ideal)) (x3 : (⟨S222x6, .f32⟩ : BufTy).Contents (Elt Ideal)) (x4 : (⟨S27x6, .f32⟩ : BufTy).Contents (Elt Ideal)) (x5 : (⟨S373x6, .f32⟩ : BufTy).Contents (Elt Ideal)) (x6 : (⟨S283x6, .f32⟩ : BufTy).Contents (Elt Ideal)) (x7 : (⟨S26x6, .f32⟩ : BufTy).Contents (Elt Ideal)) (x8 : (⟨S7x6, .f32⟩ : BufTy).Contents (Elt Ideal)) (X : FVec Ideal S2000x37 .f32)
    (hX : ∀ (r : Fin 2000) (q : Fin 37), X (ix2 r q) = ∑ u : Fin 50000, ind (x2 (ix2 r u)) * (if hq : q.val < 36 then Cert.ReferenceIdeal.Read.val_main_v54 (F := Ideal) x1 x3 x4 x5 x6 x7 x8 (ix2 u ⟨q.val, hq⟩) else 1)) :
    tailK x0 X = Cert.ReferenceIdeal.Read.val_main_v63 (F := Ideal) x0 x1 x2 x3 x4 x5 x6 x7 x8 := by
  have hA : extractStridedSlice S2000x36 ![0, 0] X slices_S2000x37_S2000x36_0_0
      = Cert.ReferenceIdeal.Read.val_main_v60 (F := Ideal) x1 x2 x3 x4 x5 x6 x7 x8 := by
    funext j
    obtain ⟨r, q, rfl⟩ : ∃ (r : Fin 2000) (q : Fin 36), j = ix2 r q := ⟨j 0, j 1, eq_ix2 j⟩
    have hq37 : q.val < 37 := Nat.lt_succ_of_lt q.isLt
    refine (extractStridedSlice_apply _ X slices_S2000x37_S2000x36_0_0 (ix2 r q) (ix2 r (⟨q.val, hq37⟩ : Fin 37)) ?_).trans ?_
    · intro a
      match a with
      | ⟨0, _⟩ => show r.val = 0 + r.val; omega
      | ⟨1, _⟩ => show q.val = 0 + q.val; omega
    rw [hX r ⟨q.val, hq37⟩, Cert.ReferenceIdeal.Read.val_main_v60_apply]
    refine Finset.sum_congr rfl fun u _ => ?_
    rw [dif_pos (show (⟨q.val, hq37⟩ : Fin 37).val < 36 from q.isLt), lidx_eq, ridx_eq, mask_apply]
  have hB : broadcastInDim S2000x36 ![0, 1] bcast_S2000x1_S2000x36_0_1 (extractStridedSlice S2000x1 ![0, 36] X slices_S2000x37_S2000x1_0_36)
      = Cert.ReferenceIdeal.Read.val_main_v61 (F := Ideal) x2 := by
    funext j
    obtain ⟨r, q, rfl⟩ : ∃ (r : Fin 2000) (q : Fin 36), j = ix2 r q := ⟨j 0, j 1, eq_ix2 j⟩
    refine (broadcastInDim_apply _ bcast_S2000x1_S2000x36_0_1 _ (ix2 r q) (ix2 r (0 : Fin 1)) ?_).trans ?_
    · intro a
      match a with
      | ⟨0, _⟩ => show r.val = if (2000 : Nat) = 1 then 0 else r.val; rw [if_neg (by decide)]
      | ⟨1, _⟩ => show 0 = if (1 : Nat) = 1 then 0 else q.val; rw [if_pos rfl]
    refine (extractStridedSlice_apply _ X slices_S2000x37_S2000x1_0_36 (ix2 r (0 : Fin 1)) (ix2 r (⟨36, by decide⟩ : Fin 37)) ?_).trans ?_
    · intro a
      match a with
      | ⟨0, _⟩ => show r.val = 0 + r.val; omega
      | ⟨1, _⟩ => show 36 = 36 + 0; rfl
    rw [hX r ⟨36, by decide⟩, Cert.ReferenceIdeal.Read.val_main_v61_apply, Cert.ReferenceIdeal.Read.val_main_v59_apply,
      Cert.ReferenceIdeal.Read.val_main_v58_apply, Cert.ReferenceIdeal.Read.val_main_cst_apply]
    rw [Ideal.ofBits_def, Ideal.ofBits_zero_f32, zero_add]
    refine Finset.sum_congr rfl fun u _ => ?_
    rw [dif_neg (show ¬ (⟨36, by decide⟩ : Fin 37).val < 36 from Nat.lt_irrefl 36), mul_one, sidx_eq, mask_apply]
  unfold tailK Cert.ReferenceIdeal.Read.val_main_v63 Cert.ReferenceIdeal.Read.val_main_v62
  rw [hA, hB]

/-- The table the pallas_call is handed, from the gathered table U: a column of ones appended on the right,
    the format changed, 176 rows of zeros appended below. -/
def uext (U : FVec Ideal S50000x36 .f32) : FVec Ideal S50176x37 .bf16 :=
  pad S50176x37 ![0, 0] ![176, 0] ![0, 0]
    (truncf .bf16 (concatenate S50000x37 1 [⟨S50000x36, U⟩, ⟨S50000x1, broadcastInDim S50000x1 ![] bcast_S_S50000x1 (constant (F := Ideal) S_ .f32 0x3F800000#32)⟩] concatenates_S50000x36_S50000x1_S50000x37_d1) bitsLt_bf16_f32)
    (truncf .bf16 (constant (F := Ideal) S_ .f32 0x00000000#32) bitsLt_bf16_f32) pads_S50000x37_S50176x37_01760_000 h_S_

/-- THE EXTENDED TABLE AT AN INDEX: at a row below 50000 the table's element in the first 36 columns and one
    in the 37th; zero at the 176 appended rows. A row below 50000 is inside the padded operand, where the
    format change is the identity and the joined array reads its first piece left of column 36 and its second
    piece (the broadcast constant one) at column 36; a row from 50000 on is outside it on the row axis, where
    the padding value is the constant zero. -/
theorem uext_apply (U : FVec Ideal S50000x36 .f32) (u : Fin 50176) (q : Fin 37) :
    uext U (ix2 u q) = if hu : u.val < 50000 then (if hq : q.val < 36 then U (ix2 ⟨u.val, hu⟩ ⟨q.val, hq⟩) else 1) else 0 := by
  unfold uext
  by_cases hu : u.val < 50000
  · rw [dif_pos hu]
    refine (pad_apply_of_inside _ _ _ _ _ pads_S50000x37_S50176x37_01760_000 h_S_ (ix2 u q) (ix2 (⟨u.val, hu⟩ : Fin 50000) q) ?_).trans ?_
    · intro a
      match a with
      | ⟨0, _⟩ => show u.val = 0 + u.val * (0 + 1); omega
      | ⟨1, _⟩ => show q.val = 0 + q.val * (0 + 1); omega
    rw [truncf_apply]
    by_cases hq : q.val < 36
    · rw [dif_pos hq]
      exact concatenate_pair_apply_left 1 U _ concatenates_S50000x36_S50000x1_S50000x37_d1 (ix2 (⟨u.val, hu⟩ : Fin 50000) q) rfl (ix2 (⟨u.val, hu⟩ : Fin 50000) (⟨q.val, hq⟩ : Fin 36)) (fun b => match b with | ⟨0, _⟩ => rfl | ⟨1, _⟩ => rfl)
    · rw [dif_neg hq]
      refine (concatenate_pair_apply_right 1 U _ concatenates_S50000x36_S50000x1_S50000x37_d1 (ix2 (⟨u.val, hu⟩ : Fin 50000) q) rfl rfl (ix2 (⟨u.val, hu⟩ : Fin 50000) (0 : Fin 1)) ?_ ?_).trans ?_
      · intro b hb
        match b with
        | ⟨0, _⟩ => rfl
        | ⟨1, _⟩ => exact absurd rfl hb
      · show 0 + 36 = q.val
        have := q.isLt; omega
      · rw [broadcastInDim_scalar_apply, constant_apply]
        exact Ideal.ofBits_one_f32
  · rw [dif_neg hu]
    refine (pad_apply_of_not_inside _ _ _ _ _ pads_S50000x37_S50176x37_01760_000 h_S_ (ix2 u q) (0 : Fin 2) ?_).trans ?_
    · rintro ⟨_, _, h3⟩
      have h3' : (u.val - 0) / (0 + 1) < 50000 := h3
      simp at h3'
      exact hu h3'
    · rw [truncf_apply, constant_apply]
      exact Ideal.ofBits_zero_f32

/-- A sum over the 50176 padded rows of any weight times the extended table is the sum over the 50000 users
    of the weight times the table's element (one in the 37th column): the 176 appended rows are zero. -/
theorem sum_mul_uext (U : FVec Ideal S50000x36 .f32) (w : Fin 50176 → EReal) (q : Fin 37) :
    ∑ u : Fin 50176, w u * uext U (ix2 u q)
      = ∑ u : Fin 50000, w ⟨u.val, Nat.lt_of_lt_of_le u.isLt (by decide)⟩ * (if hq : q.val < 36 then U (ix2 u ⟨q.val, hq⟩) else 1) := by
  have hsplit := Fin.sum_univ_add (M := EReal) (a := 50000) (b := 176) (fun u : Fin (50000 + 176) => w u * uext U (ix2 u q))
  refine hsplit.trans ?_
  have htail : ∑ i : Fin 176, w (Fin.natAdd 50000 i) * uext U (ix2 (Fin.natAdd 50000 i) q) = 0 := by
    refine Finset.sum_eq_zero fun i _ => ?_
    rw [uext_apply, dif_neg (show ¬ (Fin.natAdd 50000 i : Fin (50000 + 176)).val < 50000 from Nat.not_lt.2 (Nat.le_add_right _ _)), mul_zero]
  rw [htail, add_zero]
  refine Finset.sum_congr rfl fun u _ => ?_
  rw [uext_apply, dif_pos (show (Fin.castAdd 176 u : Fin (50000 + 176)).val < 50000 from u.isLt)]
  rfl

end Cert.KernelIdeal.HostReads

end
-- ==== Proof.HostValue.lean ====
/-
  The program's own host-side values, at the ideal instance. The array the launch is handed (window 1's
  array) is, after the 74 host lines before the launch, the extended table of HostReads built on the
  reference's gathered table of the same arguments: both are the same composition of the same operations.
  What the five host lines after the launch leave in the result buffer is HostReads' tail applied to the
  first argument and to window 2's array as the launch leaves it.
-/
import proofs.«162163_j6107443495191_2_alg».proof.Proof.KI.FrameKit
import proofs.«162163_j6107443495191_2_alg».proof.Proof.HostReads
import proofs.«162163_j6107443495191_2_alg».proof.Proof.Gen.ReferenceIdeal.Read
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- A six-operand operation's result at its own buffer, with each operand's contents at its own reference (the
    family of contents spelled out operand by operand, so that each is read further by the result lemmas). -/
theorem nary6_result' {τ : Topo} {sig : RefSig} {Val : EltTy → Type} {y x0 x1 x2 x3 x4 x5 : Ref sig .tc}
    (f : ((k : Fin 6) → ((![x0, x1, x2, x3, x4, x5] : Fin 6 → Ref sig .tc) k).ty.Contents Val) → y.ty.Contents Val) (hxs hy)
    (F : Valuation τ sig Val) :
    (StableHlo.nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [StableHlo.nary_result]; congr 1; funext k; fin_cases k <;> rfl

variable (m : (ℓ : Loc nD τ sig) → Buf (Elt Ideal) ℓ) (c : Dev nD)

set_option maxHeartbeats 8000000 in
/-- THE ARRAY THE LAUNCH IS HANDED is the extended table built on the reference's gathered table of the same
    arguments: the 74 host lines before the launch compose to the same operations. -/
theorem V_v58 :
    (V (F := Ideal) m c main_v58 : FVec Ideal S50176x37 .bf16) = HostReads.uext (Cert.ReferenceIdeal.Read.val_main_v54 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  dsimp only [V, V0]
  simp only [hostOps0, hostOps0_1, List.flatten_cons, List.flatten_nil, List.append_nil, List.cons_append, List.nil_append]
  simp (disch := decide) only [StableHlo.after_cons, StableHlo.after_nil, StableHlo.TRef.unary, StableHlo.TRef.binary,
      StableHlo.nullary_result', StableHlo.unary_result', StableHlo.binary_result', StableHlo.ternary_result', StableHlo.reshape_result', nary6_result',
      StableHlo.nullary_result_ne', StableHlo.unary_result_ne', StableHlo.binary_result_ne', StableHlo.ternary_result_ne', StableHlo.reshape_result_ne',
      StableHlo.nary_result_ne']
  rfl

/-- WHAT THE FIVE HOST LINES AFTER THE LAUNCH LEAVE IN THE RESULT BUFFER: the tail of HostReads applied to the first
    argument (no line writes it) and to window 2's array as the launch leaves it (the lines read it at its buffer). -/
theorem afterTail_v64 (dats : (p : Fin 1) → (c : Dev nD) → Pipeline.Dat τ (Elt Ideal) Unit ℕ (UR sig nD τ) ℕ (cfgs p) c) :
    (Pipeline.afterTail₀ cfgs dats 0 (V0 m) [hostOps1] c main_v64 : FVec Ideal S2000x52 .f32) = HostReads.tailK (m ((c : Thread nD τ).loc main_arg0)) ((dats 0 c).arrAt 2 cfg0.N) := by
  unfold Pipeline.afterTail₀
  show StableHlo.after hostOps1 _ (Proc.devRef .tc main_v64) = _
  after_results
  have h59 : Pipeline.withArrays (cfgs 0).spec c (V0 m c) (fun w => (dats 0 c).arrAt w (cfgs 0).N) (Proc.devRef .tc main_v59) = (dats 0 c).arrAt 2 cfg0.N :=
    Pipeline.withArrays_arr spec0 launch0.win.arr_inj c _ _ 2
  have h0 : Pipeline.withArrays (cfgs 0).spec c (V0 m c) (fun w => (dats 0 c).arrAt w (cfgs 0).N) (Proc.devRef .tc main_arg0) = m ((c : Thread nD τ).loc main_arg0) :=
    (Pipeline.withArrays_of_ne _ c (V0 m c) _ main_arg0 (by exact (by decide : ∀ w, Pipeline.arrRef spec0 w ≠ main_arg0))).trans (V_main_arg0 m c)
  rw [h59, h0]
  rfl

end Cert.KernelIdeal.Hand

end
-- ==== Proof.ValueRun.lean ====
/-
  The idealized kernel program's result. After the launch the output array holds, at row r and column q, the sum
  over the 50000 users of (the user is in team r) times (the user's table entry at column q, or one at the last
  column): the 49 column blocks' partial sums added up, the columns past the array's end and the 176 zero rows
  contributing nothing. The five host lines after the launch divide the first 36 columns by the last and join the
  quotient to the first argument; the reference's last lines do the same to its one product and its row count,
  which are those same sums. So the result buffer ends at the reference's function of the arguments.
-/
import proofs.«162163_j6107443495191_2_alg».proof.Proof.KI.Frame
import proofs.«162163_j6107443495191_2_alg».proof.Proof.AccValue
import proofs.«162163_j6107443495191_2_alg».proof.Proof.HostValue
import proofs.«162163_j6107443495191_2_alg».proof.Proof.HostReads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ) (ρ : Dev nD → PrngReg)

/-- The gathered table, as the reference computes it from the launch memory's arguments. -/
abbrev gathered (c : Dev nD) : FVec Ideal S50000x36 .f32 :=
  Cert.ReferenceIdeal.Read.val_main_v54 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's result, as a function of the launch memory's arguments. -/
def refOut (c : Dev nD) : Buf (Elt Ideal) ((c.tc : Thread nD τ).loc main_v64) :=
  Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What the last host lines leave in the result buffer is the reference's result. -/
theorem result_eq (c : Dev nD) :
    Pipeline.afterTail₀ cfgs (dats (F := Ideal) m) 0 (V0 m) [hostOps1] c main_v64 = refOut m c :=
  (afterTail_v64 m c (dats m)).trans
    (HostReads.tail_eq_ref _ _ _ _ _ _ _ _ _ _ (fun r q =>
      final_v59 m c (gathered m c) (HostReads.uext (gathered m c)) (V_v58 m c) (HostReads.uext_apply _) r q))

/-- The idealized kernel program runs to its end with the reference's result in its result buffer and its
    arguments unchanged. -/
theorem run_value : θ_run defs (onTc (τ := τ) (main (F := Ideal))) ⟨m, fun _ => 0, ρ⟩ (fun r => ∀ c : Dev nD,
      r.2.mem ((c.tc : Thread nD τ).loc main_v64) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨((h c).2 main_v64 (Pipeline.mem_restRefs_of main_v64 (by decide) (by decide))).trans (result_eq m c),
        args_kept m r h c⟩)
    (run_main m ρ)

end Cert.KernelIdeal.Hand

end
-- ==== Proof.lean ====
/-
  The certificate of the masked-mean kernel against its reference.

  Both programs gather six small tables by the users' categorical features into one table U (50000 by 36), the
  same host lines in the same order. The reference turns the team-user matrix into a 0/1 mask, multiplies it by U,
  and divides each row by the row's count of ones. The kernel appends a column of ones to U (so the count is one
  more column of the product), appends 176 zero rows, and accumulates the masked product over 49 blocks of 1024
  columns, masking the columns past 50000 by their number; then it divides the first 36 columns by the 37th.
  Over the extended reals the blockwise sum of the 49 products is the one sum over the 50000 users, a product
  with the ones column is the mask's row sum, and the zero rows contribute zeros; no law beyond commutativity and
  associativity of the sum is used, so the precondition is never opened. The two quotients are then the same
  function of the same two arrays.

  The frames of the two kernel programs are hand-written (Proof/K, Proof/KI: the same text at the two
  instances); the reference's frame is its generated run with the result dropped; the ideal pass rewrote nothing.
-/
import proofs.«162163_j6107443495191_2_alg».proof.Defs
import proofs.«162163_j6107443495191_2_alg».proof.Proof.Gen.Kernel
import proofs.«162163_j6107443495191_2_alg».proof.Proof.Gen.KernelIdeal
import proofs.«162163_j6107443495191_2_alg».proof.Proof.Gen.ReferenceIdeal
import proofs.«162163_j6107443495191_2_alg».proof.Proof.Gen.Pre_finite_inputs
import proofs.«162163_j6107443495191_2_alg».proof.Proof.Gen.ReferenceIdeal.Run
import proofs.«162163_j6107443495191_2_alg».proof.Proof.Gen.ReferenceIdeal.Read
import proofs.«162163_j6107443495191_2_alg».proof.Proof.K.Frame
import proofs.«162163_j6107443495191_2_alg».proof.Proof.KI.Frame
import proofs.«162163_j6107443495191_2_alg».proof.Proof.ValueRun
import Idealize.ShloMosaic.Adequacy
import Idealize.ShloMosaic.Init

noncomputable section

namespace Cert.Proof

open Idealize.ShloMosaic Idealize.SL.Sem

/-- The word-level kernel program runs to its end and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the reference's function of the
    arguments in their result buffers. -/
theorem algebraic : Cert.algebraic_KernelIdeal_ReferenceIdeal := by
  intro m ρ m' ρ' _ hagree
  refine ⟨fun c => Cert.KernelIdeal.Hand.refOut m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
